-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v29) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_v58) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S16384x9x3 : Shape := ⟨3, ![16384, 9, 3]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2048x1024 : Shape := ⟨2, ![2048, 1024]⟩
abbrev S1024x1 : Shape := ⟨2, ![1024, 1]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x9x3 : S_.BroadcastsInDim S16384x9x3 (![] : Fin 0 → Fin S16384x9x3.rank)
  reducesTo_S16384x9x3_S_d0_1_2 : S16384x9x3.ReducesTo [0, 1, 2] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1 : S_.BroadcastsInDim S1024x1 (![] : Fin 0 → Fin S1024x1.rank)
  reducesTo_S1024x1_S_d0_1 : S1024x1.ReducesTo [0, 1] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg14 : FVec F S2048x1024 .f32) (main_arg15 : FVec F S1024 .f32) (main_arg16 : FVec F S1024x1 .f32) (main_arg17 : FVec F S1 .f32) (main_v63 : IVec S_ 1) (main_v67 : IVec S_ 1) : IVec S_ 1 :=
  let main_v68 : IVec S_ 1 := andi main_v63 main_v67
  let main_v69 : FVec F S2048x1024 .f32 := Host.absf main_arg14
  let main_cst_26 : FVec F S_ .f32 := constant S_ .f32 0x7F800000#32
  let main_v70 : FVec F S2048x1024 .f32 := broadcastInDim S2048x1024 ![] bcast_S_S2048x1024 main_cst_26
  let main_v71 : IVec S2048x1024 1 := cmpf .olt main_v69 main_v70
  let main_c_27 : IVec S_ 1 := constantI S_ 1 1#1
  let main_v72 : IVec S_ 1 := (fun x v => Host.reduce IntOp.andi x v reducesTo_S2048x1024_S_d0_1 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024x1 .f32 := Host.absf main_arg16
  let main_cst_30 : FVec F S_ .f32 := constant S_ .f32 0x7F800000#32
  let main_v80 : FVec F S1024x1 .f32 := broadcastInDim S1024x1 ![] bcast_S_S1024x1 main_cst_30
  let main_v81 : IVec S1024x1 1 := cmpf .olt main_v79 main_v80
  let main_c_31 : IVec S_ 1 := constantI S_ 1 1#1
  let main_v82 : IVec S_ 1 := (fun x v => Host.reduce IntOp.andi x v reducesTo_S1024x1_S_d0_1 h_S_) main_v81 main_c_31
  let main_v83 : IVec S_ 1 := andi main_v78 main_v82
  let main_v84 : FVec F S1 .f32 := Host.absf main_arg17
  let main_cst_32 : FVec F S_ .f32 := constant S_ .f32 0x7F800000#32
  fn_part5 (F := F) main_v83 main_v84 main_cst_32

def fn_part3 {F : FTy → Type} [FloatOps F] (main_arg11 : FVec F S512 .f32) (main_arg12 : FVec F S512x1 .f32) (main_arg13 : FVec F S1 .f32) (main_arg14 : FVec F S2048x1024 .f32) (main_arg15 : FVec F S1024 .f32) (main_arg16 : FVec F S1024x1 .f32) (main_arg17 : FVec F S1 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x1 .f32 := Host.absf main_arg12
  let main_cst_22 : FVec F S_ .f32 := constant S_ .f32 0x7F800000#32
  let main_v60 : FVec F S512x1 .f32 := broadcastInDim S512x1 ![] bcast_S_S512x1 main_cst_22
  let main_v61 : IVec S512x1 1 := cmpf .olt main_v59 main_v60
  let main_c_23 : IVec S_ 1 := constantI S_ 1 1#1
  let main_v62 : IVec S_ 1 := (fun x v => Host.reduce IntOp.andi x v reducesTo_S512x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg14 main_arg15 main_arg16 main_arg17 main_v63 main_v67

def fn_part2 {F : FTy → Type} [FloatOps F] (main_arg7 : FVec F S512 .f32) (main_arg8 : FVec F S512x1 .f32) (main_arg9 : FVec F S1 .f32) (main_arg10 : FVec F S1024x512 .f32) (main_arg11 : FVec F S512 .f32) (main_arg12 : FVec F S512x1 .f32) (main_arg13 : FVec F S1 .f32) (main_arg14 : FVec F S2048x1024 .f32) (main_arg15 : FVec F S1024 .f32) (main_arg16 : FVec F S1024x1 .f32) (main_arg17 : FVec F S1 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x1 .f32 := Host.absf main_arg8
  let main_cst_14 : FVec F S_ .f32 := constant S_ .f32 0x7F800000#32
  let main_v40 : FVec F S512x1 .f32 := broadcastInDim S512x1 ![] bcast_S_S512x1 main_cst_14
  let main_v41 : IVec S512x1 1 := cmpf .olt main_v39 main_v40
  let main_c_15 : IVec S_ 1 := constantI S_ 1 1#1
  let main_v42 : IVec S_ 1 := (fun x v => Host.reduce IntOp.andi x v reducesTo_S512x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_arg14 main_arg15 main_arg16 main_arg17 main_v48 main_v49 main_v50

def fn_part1 {F : FTy → Type} [FloatOps F] (main_arg4 : FVec F S1024x1024 .f32) (main_arg5 : FVec F S1024 .f32) (main_arg6 : FVec F S1024x512 .f32) (main_arg7 : FVec F S512 .f32) (main_arg8 : FVec F S512x1 .f32) (main_arg9 : FVec F S1 .f32) (main_arg10 : FVec F S1024x512 .f32) (main_arg11 : FVec F S512 .f32) (main_arg12 : FVec F S512x1 .f32) (main_arg13 : FVec F S1 .f32) (main_arg14 : FVec F S2048x1024 .f32) (main_arg15 : FVec F S1024 .f32) (main_arg16 : FVec F S1024x1 .f32) (main_arg17 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S16384x512 .f32) (main_arg1 : FVec F S16384x9x3 .f32) (main_arg2 : FVec F S512x1024 .f32) (main_arg3 : FVec F S1024 .f32) (main_arg4 : FVec F S1024x1024 .f32) (main_arg5 : FVec F S1024 .f32) (main_arg6 : FVec F S1024x512 .f32) (main_arg7 : FVec F S512 .f32) (main_arg8 : FVec F S512x1 .f32) (main_arg9 : FVec F S1 .f32) (main_arg10 : FVec F S1024x512 .f32) (main_arg11 : FVec F S512 .f32) (main_arg12 : FVec F S512x1 .f32) (main_arg13 : FVec F S1 .f32) (main_arg14 : FVec F S2048x1024 .f32) (main_arg15 : FVec F S1024 .f32) (main_arg16 : FVec F S1024x1 .f32) (main_arg17 : FVec F S1 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x9x3 .f32 := Host.absf main_arg1
  let main_cst_0 : FVec F S_ .f32 := constant S_ .f32 0x7F800000#32
  let main_v5 : FVec F S16384x9x3 .f32 := broadcastInDim S16384x9x3 ![] bcast_S_S16384x9x3 main_cst_0
  let main_v6 : IVec S16384x9x3 1 := cmpf .olt main_v4 main_v5
  let main_c_1 : IVec S_ 1 := constantI S_ 1 1#1
  let main_v7 : IVec S_ 1 := (fun x v => Host.reduce IntOp.andi x v reducesTo_S16384x9x3_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S16384x512 : Shape := ⟨2, ![16384, 512]⟩
abbrev S16384x9x3 : Shape := ⟨3, ![16384, 9, 3]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2048x1024 : Shape := ⟨2, ![2048, 1024]⟩
abbrev S1024x1 : Shape := ⟨2, ![1024, 1]⟩
abbrev S1x1024 : Shape := ⟨2, ![1, 1024]⟩
abbrev S_ : Shape := ⟨0, ![]⟩
abbrev S512x2 : Shape := ⟨2, ![512, 2]⟩
abbrev S1024x2 : Shape := ⟨2, ![1024, 2]⟩
abbrev S2 : Shape := ⟨1, ![2]⟩
abbrev S1x2 : Shape := ⟨2, ![1, 2]⟩
abbrev S1x1 : Shape := ⟨2, ![1, 1]⟩
abbrev S16384x3 : Shape := ⟨2, ![16384, 3]⟩
abbrev S1024x3 : Shape := ⟨2, ![1024, 3]⟩
abbrev S16384x1 : Shape := ⟨2, ![16384, 1]⟩
abbrev S16384x9 : Shape := ⟨2, ![16384, 9]⟩

abbrev nBuf : Space → Nat
  | .hbm => 49
  | .vmem => 16
  | .smem => 0
  | _ => 0

abbrev bufTy : (tb : Table) → Fin (tcTables nBuf tb) → BufTy
  | .hbm, ⟨0, _⟩ => ⟨S16384x512, .f32⟩
  | .hbm, ⟨1, _⟩ => ⟨S16384x9x3, .f32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S1024x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S2048x1024, .f32⟩
  | .hbm, ⟨15, _⟩ => ⟨S1024, .f32⟩
  | .hbm, ⟨16, _⟩ => ⟨S1024x1, .f32⟩
  | .hbm, ⟨17, _⟩ => ⟨S1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S_, .f32⟩
  | .hbm, ⟨27, _⟩ => ⟨S512x1, .f32⟩
  | .hbm, ⟨28, _⟩ => ⟨S512x2, .f32⟩
  | .hbm, ⟨29, _⟩ => ⟨S512x2, .f32⟩
  | .hbm, ⟨30, _⟩ => ⟨S1024x2, .f32⟩
  | .hbm, ⟨31, _⟩ => ⟨S1024x2, .bf16⟩
  | .hbm, ⟨32, _⟩ => ⟨S2, .f32⟩
  | .hbm, ⟨33, _⟩ => ⟨S1x2, .f32⟩
  | .hbm, ⟨34, _⟩ => ⟨S512x1024, .bf16⟩
  | .hbm, ⟨35, _⟩ => ⟨S1024x1024, .bf16⟩
  | .hbm, ⟨36, _⟩ => ⟨S1024x1, .bf16⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x1, .f32⟩
  | .hbm, ⟨41, _⟩ => ⟨S16384x512, .bf16⟩
  | .hbm, ⟨42, _⟩ => ⟨S16384x3, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x9, .f32⟩
  | .hbm, ⟨47, _⟩ => ⟨S16384x9, .f32⟩
  | .hbm, ⟨48, _⟩ => ⟨S16384x9, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x2, .bf16⟩
  | .local _ .vmem, ⟨9, _⟩ => ⟨S1x2, .f32⟩
  | .local _ .vmem, ⟨10, _⟩ => ⟨S1024x1024, .bf16⟩
  | .local _ .vmem, ⟨11, _⟩ => ⟨S1x1024, .f32⟩
  | .local _ .vmem, ⟨12, _⟩ => ⟨S1024x1, .bf16⟩
  | .local _ .vmem, ⟨13, _⟩ => ⟨S1x1, .f32⟩
  | .local _ .vmem, ⟨14, _⟩ => ⟨S1024x3, .f32⟩
  | .local _ .vmem, ⟨15, _⟩ => ⟨S1024x3, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x3 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  slices_S2048x1024_S1024x1024_0_0 : S2048x1024.Slices ![0, 0] S1024x1024
  slices_S2048x1024_S1024x1024_1024_0 : S2048x1024.Slices ![1024, 0] S1024x1024
  bitsLt_bf16_f32 : FTy.bits .bf16 < FTy.bits .f32
  concatenates_S1024x512_S1024x512_S1024x1024_d1 : Shape.Concatenates [S1024x512, S1024x512] S1024x1024 1
  concatenates_S512_S512_S1024_d0 : Shape.Concatenates [S512, S512] S1024 0
  shapeCasts_S1024_S1x1024 : S1024.ShapeCasts S1x1024
  bcast_S_S512x1 : S_.BroadcastsInDim S512x1 (![] : Fin 0 → Fin S512x1.rank)
  concatenates_S512x1_S512x1_S512x2_d1 : Shape.Concatenates [S512x1, S512x1] S512x2 1
  concatenates_S512x2_S512x2_S1024x2_d0 : Shape.Concatenates [S512x2, S512x2] S1024x2 0
  concatenates_S1_S1_S2_d0 : Shape.Concatenates [S1, S1] S2 0
  shapeCasts_S2_S1x2 : S2.ShapeCasts S1x2
  shapeCasts_S1_S1x1 : S1.ShapeCasts S1x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2_S1024x2_0_0 : ∀ a, (![0, 0] : Fin 2 → Nat) a + S1024x2.size a ≤ S1024x2.size a
  h_S1024x2 : 0 < S1024x2.numel
  shapeCasts_S1024x2_S1024x2 : S1024x2.ShapeCasts S1024x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S1024x2 : S1x2.Broadcasts S1024x2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  concatenates_S1024x2_S1024x1_S1024x3_d1 : Shape.Concatenates [S1024x2, S1024x1] S1024x3 1
  inb_S1024x3_S1024x3_0_0 : ∀ a, (![0, 0] : Fin 2 → Nat) a + S1024x3.size a ≤ S1024x3.size a
  h_S1024x3 : 0 < S1024x3.numel
  slices_S16384x3_S16384x1_0_0 : S16384x3.Slices ![0, 0] S16384x1
  slices_S16384x3_S16384x1_0_1 : S16384x3.Slices ![0, 1] S16384x1
  slices_S16384x3_S16384x1_0_2 : S16384x3.Slices ![0, 2] S16384x1
  bcast_S16384x1_S16384x9_0_1 : S16384x1.BroadcastsInDim S16384x9 (![0, 1] : Fin 2 → Fin S16384x9.rank)
  dot_S1024x512_S512x1024_S1024x1024_1_0_0_1_n_n_wf : DotDims.WF S1024x512 S512x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x2_S1024x2_1_0_0_1_n_n_wf : DotDims.WF S1024x1024 S1024x2 S1024x2 [1] [0] [0] [1] [] []
  dot_S1024x1024_S1024x1_S1024x1_1_0_0_1_n_n_wf : DotDims.WF S1024x1024 S1024x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .bf16 = 32 ∨ (Rect.block (s := S512x1024) S512x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x2.size a ≤ S1024x2.size a
  hwx0_7 : ∀ i : grid0.Coords, EltTy.bits .bf16 = 32 ∨ (Rect.block (s := S1024x2) S1024x2.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2.size a ≤ S1x2.size a
  hwx0_8 : ∀ i : grid0.Coords, EltTy.bits .f32 = 32 ∨ (Rect.block (s := S1x2) S1x2.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1024x1.size a ≤ S1024x1.size a
  hwx0_11 : ∀ i : grid0.Coords, EltTy.bits .bf16 = 32 ∨ (Rect.block (s := S1024x1) S1024x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x3.size a ≤ S16384x3.size a
  hwx0_13 : ∀ i : grid0.Coords, EltTy.bits .f32 = 32 ∨ (Rect.block (s := S16384x3) S1024x3.size (cc0_transform_13 i) (hinb0_13 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x2_S1024x2_1_0_0_1_n_n : DotDims S1024x1024 S1024x2 S1024x2 where
  lhsContracting := [1]
  rhsContracting := [0]
  lhsNonContracting := [0]
  rhsNonContracting := [1]
  lhsBatch := []
  rhsBatch := []
  wf := dot_S1024x1024_S1024x2_S1024x2_1_0_0_1_n_n_wf
def dot_S1024x1024_S1024x1_S1024x1_1_0_0_1_n_n : DotDims S1024x1024 S1024x1 S1024x1 where
  lhsContracting := [1]
  rhsContracting := [0]
  lhsNonContracting := [0]
  rhsNonContracting := [1]
  lhsBatch := []
  rhsBatch := []
  wf := dot_S1024x1024_S1024x1_S1024x1_1_0_0_1_n_n_wf

abbrev win0_0 : Pipeline.Window sig grid0 :=
  Pipeline.Window.ofSpec (Memref.whole main_v22) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1024x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v17) S1024x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v21) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v23) S1024x3.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S16384x512 : Shape := ⟨2, ![16384, 512]⟩
abbrev S16384x9x3 : Shape := ⟨3, ![16384, 9, 3]⟩
abbrev S512x1024 : Shape := ⟨2, ![512, 1024]⟩
abbrev S1024 : Shape := ⟨1, ![1024]⟩
abbrev S1024x1024 : Shape := ⟨2, ![1024, 1024]⟩
abbrev S1024x512 : Shape := ⟨2, ![1024, 512]⟩
abbrev S512 : Shape := ⟨1, ![512]⟩
abbrev S512x1 : Shape := ⟨2, ![512, 1]⟩
abbrev S1 : Shape := ⟨1, ![1]⟩
abbrev S2048x1024 : Shape := ⟨2, ![2048, 1024]⟩
abbrev S1024x1 : Shape := ⟨2, ![1024, 1]⟩
abbrev S16384x1024 : Shape := ⟨2, ![16384, 1024]⟩
abbrev S1x1024 : Shape := ⟨2, ![1, 1024]⟩
abbrev S_ : Shape := ⟨0, ![]⟩
abbrev S1x512 : Shape := ⟨2, ![1, 512]⟩
abbrev S16384x1 : Shape := ⟨2, ![16384, 1]⟩
abbrev S1x1 : Shape := ⟨2, ![1, 1]⟩
abbrev S16384x2048 : Shape := ⟨2, ![16384, 2048]⟩
abbrev S16384x9 : Shape := ⟨2, ![16384, 9]⟩

abbrev nBuf : Space → Nat
  | .hbm => 93
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x9x3, .f32⟩
  | .hbm, ⟨2, _⟩ => ⟨S512x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x512, .f32⟩
  | .hbm, ⟨7, _⟩ => ⟨S512, .f32⟩
  | .hbm, ⟨8, _⟩ => ⟨S512x1, .f32⟩
  | .hbm, ⟨9, _⟩ => ⟨S1, .f32⟩
  | .hbm, ⟨10, _⟩ => ⟨S1024x512, .f32⟩
  | .hbm, ⟨11, _⟩ => ⟨S512, .f32⟩
  | .hbm, ⟨12, _⟩ => ⟨S512x1, .f32⟩
  | .hbm, ⟨13, _⟩ => ⟨S1, .f32⟩
  | .hbm, ⟨14, _⟩ => ⟨S2048x1024, .f32⟩
  | .hbm, ⟨15, _⟩ => ⟨S1024, .f32⟩
  | .hbm, ⟨16, _⟩ => ⟨S1024x1, .f32⟩
  | .hbm, ⟨17, _⟩ => ⟨S1, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S1x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S16384x512, .f32⟩
  | .hbm, ⟨33, _⟩ => ⟨S1x512, .f32⟩
  | .hbm, ⟨34, _⟩ => ⟨S16384x512, .f32⟩
  | .hbm, ⟨35, _⟩ => ⟨S16384x512, .f32⟩
  | .hbm, ⟨36, _⟩ => ⟨S_, .f32⟩
  | .hbm, ⟨37, _⟩ => ⟨S16384x512, .f32⟩
  | .hbm, ⟨38, _⟩ => ⟨S16384x512, .f32⟩
  | .hbm, ⟨39, _⟩ => ⟨S16384x1, .f32⟩
  | .hbm, ⟨40, _⟩ => ⟨S1x1, .f32⟩
  | .hbm, ⟨41, _⟩ => ⟨S16384x1, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x512, .f32⟩
  | .hbm, ⟨52, _⟩ => ⟨S1x512, .f32⟩
  | .hbm, ⟨53, _⟩ => ⟨S16384x512, .f32⟩
  | .hbm, ⟨54, _⟩ => ⟨S16384x512, .f32⟩
  | .hbm, ⟨55, _⟩ => ⟨S_, .f32⟩
  | .hbm, ⟨56, _⟩ => ⟨S16384x512, .f32⟩
  | .hbm, ⟨57, _⟩ => ⟨S16384x512, .f32⟩
  | .hbm, ⟨58, _⟩ => ⟨S16384x1, .f32⟩
  | .hbm, ⟨59, _⟩ => ⟨S1x1, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S_, .f32⟩
  | .hbm, ⟨65, _⟩ => ⟨S16384x1, .f32⟩
  | .hbm, ⟨66, _⟩ => ⟨S16384x1, .f32⟩
  | .hbm, ⟨67, _⟩ => ⟨S_, .f32⟩
  | .hbm, ⟨68, _⟩ => ⟨S16384x1, .f32⟩
  | .hbm, ⟨69, _⟩ => ⟨S16384x1, .f32⟩
  | .hbm, ⟨70, _⟩ => ⟨S16384x2048, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S_, .f32⟩
  | .hbm, ⟨76, _⟩ => ⟨S16384x1024, .f32⟩
  | .hbm, ⟨77, _⟩ => ⟨S16384x1024, .f32⟩
  | .hbm, ⟨78, _⟩ => ⟨S16384x1, .f32⟩
  | .hbm, ⟨79, _⟩ => ⟨S1x1, .f32⟩
  | .hbm, ⟨80, _⟩ => ⟨S16384x1, .f32⟩
  | .hbm, ⟨81, _⟩ => ⟨S16384x1, .f32⟩
  | .hbm, ⟨82, _⟩ => ⟨S16384x1, .f32⟩
  | .hbm, ⟨83, _⟩ => ⟨S16384x1, .f32⟩
  | .hbm, ⟨84, _⟩ => ⟨S_, .f32⟩
  | .hbm, ⟨85, _⟩ => ⟨S16384x1, .f32⟩
  | .hbm, ⟨86, _⟩ => ⟨S16384x1, .f32⟩
  | .hbm, ⟨87, _⟩ => ⟨S_, .f32⟩
  | .hbm, ⟨88, _⟩ => ⟨S16384x1, .f32⟩
  | .hbm, ⟨89, _⟩ => ⟨S16384x1, .f32⟩
  | .hbm, ⟨90, _⟩ => ⟨S16384x9, .f32⟩
  | .hbm, ⟨91, _⟩ => ⟨S16384x9, .f32⟩
  | .hbm, ⟨92, _⟩ => ⟨S16384x9, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call0_cst : Ref sig .tc := ⟨.hbm, 22, rfl⟩
abbrev main_call0_v0 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_call1_cst : Ref sig .tc := ⟨.hbm, 29, rfl⟩
abbrev main_call1_v0 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_call2_cst : Ref sig .tc := ⟨.hbm, 36, rfl⟩
abbrev main_call2_v0 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_cst : Ref sig .tc := ⟨.hbm, 45, rfl⟩
abbrev main_v21 : Ref sig .tc := ⟨.hbm, 46, rfl⟩
abbrev main_v22 : Ref sig .tc := ⟨.hbm, 47, rfl⟩
abbrev main_cst_0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_call3_cst : Ref sig .tc := ⟨.hbm, 55, rfl⟩
abbrev main_call3_v0 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_1 : Ref sig .tc := ⟨.hbm, 64, rfl⟩
abbrev main_v36 : Ref sig .tc := ⟨.hbm, 65, rfl⟩
abbrev main_v37 : Ref sig .tc := ⟨.hbm, 66, rfl⟩
abbrev main_cst_2 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call4_cst : Ref sig .tc := ⟨.hbm, 75, rfl⟩
abbrev main_call4_v0 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_cst_3 : Ref sig .tc := ⟨.hbm, 84, rfl⟩
abbrev main_v52 : Ref sig .tc := ⟨.hbm, 85, rfl⟩
abbrev main_v53 : Ref sig .tc := ⟨.hbm, 86, rfl⟩
abbrev main_cst_4 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  concatenates_S16384x1024_S16384x1024_S16384x2048_d1 : Shape.Concatenates [S16384x1024, S16384x1024] S16384x2048 1
  bcast_S16384x1_S16384x9_0_1 : S16384x1.BroadcastsInDim S16384x9 (![0, 1] : Fin 2 → Fin S16384x9.rank)
  dot_S16384x512_S512x1024_S16384x1024_1_0_0_1_n_n_wf : DotDims.WF S16384x512 S512x1024 S16384x1024 [1] [0] [0] [1] [] []
  dot_S16384x1024_S1024x1024_S16384x1024_1_0_0_1_n_n_wf : DotDims.WF S16384x1024 S1024x1024 S16384x1024 [1] [0] [0] [1] [] []
  dot_S16384x1024_S1024x512_S16384x512_1_0_0_1_n_n_wf : DotDims.WF S16384x1024 S1024x512 S16384x512 [1] [0] [0] [1] [] []
  dot_S16384x512_S512x1_S16384x1_1_0_0_1_n_n_wf : DotDims.WF S16384x512 S512x1 S16384x1 [1] [0] [0] [1] [] []
  dot_S16384x2048_S2048x1024_S16384x1024_1_0_0_1_n_n_wf : DotDims.WF S16384x2048 S2048x1024 S16384x1024 [1] [0] [0] [1] [] []
  dot_S16384x1024_S1024x1_S16384x1_1_0_0_1_n_n_wf : DotDims.WF S16384x1024 S1024x1 S16384x1 [1] [0] [0] [1] [] []

variable [Facts₀]

def dot_S16384x512_S512x1024_S16384x1024_1_0_0_1_n_n : DotDims S16384x512 S512x1024 S16384x1024 where
  lhsContracting := [1]
  rhsContracting := [0]
  lhsNonContracting := [0]
  rhsNonContracting := [1]
  lhsBatch := []
  rhsBatch := []
  wf := dot_S16384x512_S512x1024_S16384x1024_1_0_0_1_n_n_wf
def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x1024_S1024x512_S16384x512_1_0_0_1_n_n : DotDims S16384x1024 S1024x512 S16384x512 where
  lhsContracting := [1]
  rhsContracting := [0]
  lhsNonContracting := [0]
  rhsNonContracting := [1]
  lhsBatch := []
  rhsBatch := []
  wf := dot_S16384x1024_S1024x512_S16384x512_1_0_0_1_n_n_wf
def dot_S16384x512_S512x1_S16384x1_1_0_0_1_n_n : DotDims S16384x512 S512x1 S16384x1 where
  lhsContracting := [1]
  rhsContracting := [0]
  lhsNonContracting := [0]
  rhsNonContracting := [1]
  lhsBatch := []
  rhsBatch := []
  wf := dot_S16384x512_S512x1_S16384x1_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def dot_S16384x1024_S1024x1_S16384x1_1_0_0_1_n_n : DotDims S16384x1024 S1024x1 S16384x1 where
  lhsContracting := [1]
  rhsContracting := [0]
  lhsNonContracting := [0]
  rhsNonContracting := [1]
  lhsBatch := []
  rhsBatch := []
  wf := dot_S16384x1024_S1024x1_S16384x1_1_0_0_1_n_n_wf

class Facts : Prop extends Facts₀ where

variable [Facts]
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«118333_j57260503990878_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«118333_j57260503990878_2_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.LibNormSum.lean ====
/-
  Extended-real algebra for a normalised neighbour sum. A graph convolution scales each neighbour's contribution by
  the factors `1 / sqrt (degree)` of both end points. One way of computing it multiplies every summand by both
  factors and then sums; another sums first and multiplies the total by the destination's factor afterwards. On the
  extended reals multiplication does not distribute over addition in general (`⊤ + ⊥ = ⊥`), but it does for a
  multiplier that is NON-NEGATIVE and FINITE, whatever the summands are (they may be `±∞`). The factor
  `1 / sqrt (1 + number of neighbours)` is such a multiplier. No program appears in this module.
-/
import Idealize.ShloMosaic.PureOps.Ideal.Laws

noncomputable section

namespace Cert.NormSum

open Idealize.ShloMosaic
open scoped BigOperators

/-- A non-negative finite extended real `cv` distributes over any finite sum of extended reals, infinite summands
    included: `cv * Σ f = Σ cv * f`. Induction on the index set; the step is distributivity of such a multiplier
    over one addition. -/
theorem mul_sum_of_nonneg_ne_top {ι : Type*} (S : Finset ι) (f : ι → EReal) (cv : EReal) (h0 : 0 ≤ cv)
    (ht : cv ≠ ⊤) : cv * ∑ e ∈ S, f e = ∑ e ∈ S, cv * f e := by
  classical
  induction S using Finset.induction_on with
  | empty => simp
  | insert a s ha ih =>
    rw [Finset.sum_insert ha, Finset.sum_insert ha, EReal.left_distrib_of_nonneg_of_ne_top h0 ht, ih]

/-- Pulling the destination's factor out of a normalised sum. With every destination factor `dd e` equal to the one
    non-negative finite `cv`: `cv * ((0 + Σ a·ds) + hp·cv) = (0 + Σ a·(ds·dd)) + hp·(cv·cv)`. The left side
    distributes `cv` over the outer sum and then over the inner one; each term then agrees by commutativity and
    associativity of the extended reals' multiplication. -/
theorem norm_pull {ι : Type*} (S : Finset ι) (a ds dd : ι → EReal) (hp cv : EReal) (h0 : 0 ≤ cv) (ht : cv ≠ ⊤)
    (hdd : ∀ e ∈ S, dd e = cv) :
    cv * ((0 + ∑ e ∈ S, a e * ds e) + hp * cv) = (0 + ∑ e ∈ S, a e * (ds e * dd e)) + hp * (cv * cv) := by
  rw [EReal.left_distrib_of_nonneg_of_ne_top h0 ht, zero_add, zero_add,
    mul_sum_of_nonneg_ne_top S (fun e => a e * ds e) cv h0 ht]
  congr 1
  · refine Finset.sum_congr rfl fun e he => ?_
    rw [hdd e he, mul_comm cv (a e * ds e), mul_assoc]
  · exact mul_left_comm cv hp cv

/-- The single-precision pattern `0x3F800000` (sign 0, biased exponent 127, fraction 0) denotes the extended real
    one: `2 ^ 23 * 2 ^ (127 - 127 - 23) = 1`. -/
theorem one_word : Ideal.ofBits .f32 0x3F800000#32 = (1 : EReal) := by
  rw [show (1 : EReal) = ((1 : ℝ) : EReal) by norm_cast]
  simp [Ideal.ofBits, Ideal.ieee, -EReal.coe_mul]; norm_num

/-- At a positive real the reciprocal square root is the real `(sqrt r)⁻¹`: neither of its corners (a negative
    argument, a zero argument) applies. -/
theorem rsqrt_coe_pos (r : ℝ) (hr : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr hr.le), if_neg hr.ne']

/-- A sum of ones over a finite set, plus one, is the real number `card S + 1`. -/
theorem count_add_one {ι : Type*} (S : Finset ι) :
    (0 + ∑ _e ∈ S, (1 : EReal)) + 1 = (((S.card : ℝ) + 1 : ℝ) : EReal) := by
  rw [zero_add, Finset.sum_const, EReal.nsmul_eq_mul, mul_one, EReal.coe_add, EReal.coe_natCast, EReal.coe_one]

/-- The normalising factor `1 / sqrt (1 + number of neighbours)` is a non-negative finite extended real: its
    argument is the positive real `card S + 1`, where the reciprocal square root is the real `(sqrt _)⁻¹ ≥ 0`. -/
theorem rsqrt_count_nonneg_ne_top {ι : Type*} (S : Finset ι) :
    0 ≤ Ideal.rsqrt ((0 + ∑ _e ∈ S, (1 : EReal)) + 1) ∧ Ideal.rsqrt ((0 + ∑ _e ∈ S, (1 : EReal)) + 1) ≠ ⊤ := by
  have hpos : (0 : ℝ) < (S.card : ℝ) + 1 := by positivity
  rw [count_add_one, rsqrt_coe_pos _ hpos]
  exact ⟨EReal.coe_nonneg.mpr (inv_nonneg.mpr (Real.sqrt_nonneg _)), EReal.coe_ne_top _⟩

end Cert.NormSum

end
-- ==== Proof.LibSiluMask.lean ====
/-
  THE ACTIVATION `v · σ(v)` IN ITS TWO SPELLINGS, AND A SIGN MASK IN ITS TWO SPELLINGS, at the ideal values.

  `σ(v) = 1 / (1 + e^(-v))` is the logistic function; `v ↦ v · σ(v)` is the activation often called silu or swish.  Two
  spellings of it occur in printed programs and both are read here at an index where the operand's value is known:
  • on the vector unit, `y · logistic y` entry by entry (`ksilu_at`);
  • on the host, `y · (1 / (1 + e^(-y)))` with the ones the single-precision word of 1.0 broadcast from a scalar, the
    quotient the host's division and the exponential the host's (`hsilu_at`).
  They agree on every extended real, the infinities included, because the library's logistic function is defined as that
  quotient (`silu1_quotient`).
  A mask on integer labels also has two spellings: the label compared, signed, with zero; or the label converted to a
  float and compared with `-1/2`.  An integer is either at least `0` or at most `-1`, so both give the same bit
  (`mask_bit`).  Also: a constant broadcast from a scalar read at an index (`splat_apply`) and a selection read at an index
  (`select_at`).  No program appears in this module; no sum is regrouped and nothing needs to be finite.
-/
import Idealize.ShloMosaic.PureOps.Ideal.Laws
import Idealize.ShloMosaic.Lib.ValueIdx
import Idealize.ShloMosaic.Lib.Pipeline.Value
import proofs.«118333_j57260503990878_2_alg».proof.Proof.LibNormSum

noncomputable section

namespace Cert.SiluMask

open Idealize.ShloMosaic Idealize.ShloMosaic.ValueIdx

/-! ## One number, one row -/

/-- The activation on one number: `v · σ(v)`. -/
def silu1 (v : EReal) : EReal := v * Ideal.logistic v

/-- The activation on every entry of a row. -/
def siluRow {N : ℕ} (x : Fin N → EReal) (j : Fin N) : EReal := silu1 (x j)

/-! ## The activation spelt as a quotient -/

/-- `x · (1 / (1 + e^(-x)))` with the host's division and exponential is `x · σ(x)`: the logistic function is that
    quotient by definition, on every extended real. -/
theorem silu1_quotient (v : EReal) :
    FloatOps.mulf (F := Ideal) (φ := .f32) v
        (FloatOps.hostDivf (1 : EReal) (FloatOps.addf (1 : EReal) (FloatOps.hostUnary .exp (FloatOps.hostNegf v))))
      = silu1 v := rfl

/-- A constant broadcast from a scalar reads the constant's value at every index. -/
theorem splat_apply {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's spelling of the activation, read at an index where the operand's value is known. -/
theorem hsilu_at {s : Shape} (y : FVec Ideal s .f32) (h : (⟨0, ![]⟩ : Shape).BroadcastsInDim s ![]) (i : s.Idx)
    (v : EReal) (hy : y i = v) :
    mulf y (Host.divf (broadcastInDim s ![] h (constant (F := Ideal) ⟨0, ![]⟩ .f32 0x3F800000#32))
        (addf (broadcastInDim s ![] h (constant (F := Ideal) ⟨0, ![]⟩ .f32 0x3F800000#32)) (Host.exp (Host.negf y)))) i
      = silu1 v := by
  show FloatOps.mulf (F := Ideal) (φ := .f32) (y i)
      (FloatOps.hostDivf (broadcastInDim s ![] h (constant (F := Ideal) ⟨0, ![]⟩ .f32 0x3F800000#32) i)
        (FloatOps.addf (broadcastInDim s ![] h (constant (F := Ideal) ⟨0, ![]⟩ .f32 0x3F800000#32) i)
          (FloatOps.hostUnary .exp (FloatOps.hostNegf (y i))))) = _
  rw [splat_apply, Cert.NormSum.one_word, hy]
  exact silu1_quotient v

/-- The vector unit's spelling, `y · logistic y` entry by entry, read at an index where the operand's value is known. -/
theorem ksilu_at {s : Shape} (y : FVec Ideal s .f32) (i : s.Idx) (v : EReal) (hy : y i = v) :
    mulf y (logistic y) i = silu1 v := by
  show FloatOps.mulf (F := Ideal) (φ := .f32) (y i) (FloatOps.logistic (y i)) = _
  rw [hy]
  rfl

/-! ## A selection read at an index -/

/-- `select` at an index where its three operands' values are known. -/
theorem select_at {s : Shape} {α : Type} (c : IVec s 1) (a b : s.Idx → α) (i : s.Idx) (cv : BitVec 1) (av bv : α)
    (hc : c i = cv) (ha : a i = av) (hb : b i = bv) : select c a b i = Scalar.select cv av bv := by
  show Scalar.select (c i) (a i) (b i) = _
  rw [hc, ha, hb]

/-! ## The mask's two spellings -/

/-- The single-precision pattern `0xBF000000` (sign 1, biased exponent 126, fraction 0) denotes `-1/2`:
    `-(2 ^ 23) · 2 ^ (126 - 127 - 23)`. -/
theorem neg_half_word : Ideal.ofBits .f32 0xBF000000#32 = ((-(1 / 2) : ℝ) : EReal) := by
  simp [Ideal.ofBits, Ideal.ieee, -EReal.coe_mul]; norm_num

/-- An integer exceeds `-1/2` exactly when it is at least zero. -/
theorem int_gt_neg_half (n : ℤ) : ((-(1 / 2) : ℝ) : EReal) < ((n : ℝ) : EReal) ↔ 0 ≤ n := by
  rw [EReal.coe_lt_coe_iff]
  constructor
  · intro h
    by_contra hn
    have h1 : n ≤ -1 := by omega
    have h2 : (n : ℝ) ≤ -1 := by exact_mod_cast h1
    linarith
  · intro h
    have h2 : (0 : ℝ) ≤ (n : ℝ) := by exact_mod_cast h
    linarith

/-- The label converted to a float and compared with `-1/2` gives the same bit as the label compared, signed, with
    zero. -/
theorem mask_bit (s : BitVec 32) :
    Ideal.cmp .ogt (((s.toInt : ℝ)) : EReal) (Ideal.ofBits .f32 0xBF000000#32) = IntOp.cmpi .sge s 0#32 := by
  rw [neg_half_word]
  show BitVec.ofBool (decide (((-(1 / 2) : ℝ) : EReal) < ((s.toInt : ℝ) : EReal))) = BitVec.ofBool ((0#32).sle s)
  congr 1
  rw [BitVec.sle, decide_eq_decide]
  exact (int_gt_neg_half s.toInt).trans (by simp)

end Cert.SiluMask

end
-- ==== Proof.LibSigmoid.lean ====
/-
  THE SIGMOID IN ITS TWO SPELLINGS, at the ideal values.

  `σ(v) = 1 / (1 + e^(-v))`.  On the vector unit it is one operation applied entry by entry; on the host it is spelt out as
  the quotient, with the ones the single-precision word of 1.0 broadcast from a scalar, the host's negation, exponential
  and division.  The library's logistic function is that quotient by definition, so the two agree on every extended
  real, the infinities included.  Both are read here at an index where the operand's value is known.  No sum is regrouped
  and nothing needs to be finite.
-/
import proofs.«118333_j57260503990878_2_alg».proof.Proof.LibSiluMask

noncomputable section

namespace Cert.Sigmoid

open Idealize.ShloMosaic Idealize.ShloMosaic.ValueIdx

/-- The vector unit's spelling at an index. -/
theorem klogistic_at {s : Shape} (y : FVec Ideal s .f32) (i : s.Idx) (v : EReal) (hy : y i = v) :
    logistic y i = Ideal.logistic v := by
  show FloatOps.logistic (F := Ideal) (φ := .f32) (y i) = _
  rw [hy]
  rfl

/-- The host's spelling at an index. -/
theorem hlogistic_at {s : Shape} (y : FVec Ideal s .f32) (h h' : (⟨0, ![]⟩ : Shape).BroadcastsInDim s ![]) (i : s.Idx)
    (v : EReal) (hy : y i = v) :
    Host.divf (broadcastInDim s ![] h (constant (F := Ideal) ⟨0, ![]⟩ .f32 0x3F800000#32))
        (addf (broadcastInDim s ![] h' (constant (F := Ideal) ⟨0, ![]⟩ .f32 0x3F800000#32)) (Host.exp (Host.negf y))) i
      = Ideal.logistic v := by
  show FloatOps.hostDivf (F := Ideal) (φ := .f32) (broadcastInDim s ![] h (constant (F := Ideal) ⟨0, ![]⟩ .f32 0x3F800000#32) i)
        (FloatOps.addf (broadcastInDim s ![] h' (constant (F := Ideal) ⟨0, ![]⟩ .f32 0x3F800000#32) i)
          (FloatOps.hostUnary .exp (FloatOps.hostNegf (y i)))) = _
  rw [Cert.SiluMask.splat_apply, Cert.NormSum.one_word, hy]
  rfl

end Cert.Sigmoid

end
-- ==== Proof.LibRealEntries.lean ====
/-
  EXTENDED REALS THAT ARE REAL NUMBERS, and the one place a graph Laplacian needs them.

  Over the extended reals a product does not distribute over a difference at the infinities: `(1 - a) · y` and
  `y - a · y` differ when `y` is infinite.  A program that applies `I - A` to a vector as `y - A · y` and one that builds
  the matrix `I - A` and multiplies therefore agree only where the entries are real numbers.  Proved here, free of any
  program:
  • `IsR x` — the extended real `x` is a real number — is closed under sum, difference, product, maximum, the
    exponential and finite sums (`IsR.add` … `IsR.sum`), and holds of the reciprocal square root of a positive real;
  • `coe_sum`: the coercion of a finite real sum is the sum of the coercions;
  • `sum_sub_mul`: `∑ j, (d j - a j) · y j = ∑ j, d j · y j - ∑ j, a j · y j` over real entries;
  • `sum_ind_mul`, `sum_ind_sub_mul`: with `d` the indicator of `i` (the identity matrix's row), the left side is
    `y i - ∑ j, a j · y j`: row `i` of `(I - A) y` is row `i` of `y - A y`;
  • `one_div_sqrt`: at a positive real, `1 / sqrt` is the reciprocal square root;
  • `two_word`: the single-precision pattern `0x40000000` denotes the real number two.
-/
import Idealize.ShloMosaic.PureOps.Ideal
import Idealize.ShloMosaic.PureOps.Ideal.Laws
import proofs.«118333_j57260503990878_2_alg».proof.Proof.LibNormSum

noncomputable section

open scoped BigOperators

namespace Cert.RealEntries

open Idealize.ShloMosaic

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.max {a b : EReal} (ha : IsR a) (hb : IsR b) : IsR (max a b) := by
  rcases le_total a b with h | h
  · rwa [max_eq_right h]
  · rwa [max_eq_left h]

theorem IsR.exp {a : EReal} (ha : IsR a) : IsR (Ideal.exp a) := by
  obtain ⟨r, rfl⟩ := ha; exact ⟨Real.exp r, rfl⟩

theorem IsR.sum {ι : Type*} (s : Finset ι) (f : ι → EReal) (h : ∀ i ∈ s, IsR (f i)) : IsR (∑ i ∈ s, f i) := by
  classical
  induction s using Finset.induction_on with
  | empty => exact ⟨0, by simp⟩
  | insert a s ha ih =>
    rw [Finset.sum_insert ha]
    exact (h _ (Finset.mem_insert_self _ _)).add (ih fun i hi => h i (Finset.mem_insert_of_mem hi))

/-- The coercion of a real sum is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real numbers is the coercion of a real family. -/
theorem exists_real_family {ι : Type*} (f : ι → EReal) (h : ∀ i, IsR (f i)) : ∃ g : ι → ℝ, f = fun i => (g i : EReal) :=
  ⟨fun i => (h i).choose, funext fun i => (h i).choose_spec⟩

/-- Over real numbers, `∑ j, (d j - a j) · y j = ∑ j, d j · y j - ∑ j, a j · y j`. -/
theorem sum_sub_mul {ι : Type*} (s : Finset ι) (d a y : ι → EReal) (hd : ∀ j, IsR (d j)) (ha : ∀ j, IsR (a j))
    (hy : ∀ j, IsR (y j)) : ∑ j ∈ s, (d j - a j) * y j = ∑ j ∈ s, d j * y j - ∑ j ∈ s, a j * y j := by
  obtain ⟨d', rfl⟩ := exists_real_family d hd
  obtain ⟨a', rfl⟩ := exists_real_family a ha
  obtain ⟨y', rfl⟩ := exists_real_family y hy
  simp only [← EReal.coe_sub, ← EReal.coe_mul, ← coe_sum]
  congr 1
  rw [← Finset.sum_sub_distrib]
  exact Finset.sum_congr rfl fun j _ => sub_mul _ _ _

/-- The indicator of `i` picks the `i`-th entry. -/
theorem sum_ind_mul {n : ℕ} (i : Fin n) (y : Fin n → EReal) :
    ∑ j : Fin n, (if i = j then (1 : EReal) else 0) * y j = y i := by
  rw [Finset.sum_eq_single i]
  · rw [if_pos rfl, one_mul]
  · intro j _ hj; rw [if_neg (Ne.symm hj), zero_mul]
  · intro h; exact absurd (Finset.mem_univ i) h

/-- The matrix `I - a` applied to `y`, at row `i`, is `y i - ∑ j, a j · y j` when the entries are real numbers. -/
theorem sum_ind_sub_mul {n : ℕ} (i : Fin n) (a y : Fin n → EReal) (ha : ∀ j, IsR (a j)) (hy : ∀ j, IsR (y j)) :
    ∑ j : Fin n, ((if i = j then (1 : EReal) else 0) - a j) * y j = y i - ∑ j : Fin n, a j * y j := by
  rw [sum_sub_mul Finset.univ _ a y (fun j => by split_ifs; exact IsR.one; exact IsR.zero) ha hy, sum_ind_mul]

/-- At a positive real number `1 / sqrt` is the reciprocal square root. -/
theorem one_div_sqrt (r : ℝ) (hr : 0 < r) : Ideal.div 1 (Ideal.sqrt (r : EReal)) = Ideal.rsqrt (r : EReal) := by
  rw [Cert.NormSum.rsqrt_coe_pos r hr]
  show Ideal.div 1 (if r < 0 then (⊥ : EReal) else (Real.sqrt r : EReal)) = _
  rw [if_neg (not_lt.mpr hr.le), Ideal.div_coe (Real.sqrt_pos.mpr hr).ne', one_mul, one_div]

/-- The reciprocal square root of a positive real number is a real number. -/
theorem IsR.rsqrt_pos (r : ℝ) (hr : 0 < r) : IsR (Ideal.rsqrt (r : EReal)) :=
  ⟨_, Cert.NormSum.rsqrt_coe_pos r hr⟩

/-- The single-precision pattern `0x40000000` denotes the real number two. -/
theorem two_word : Ideal.ofBits .f32 0x40000000#32 = ((2 : ℝ) : EReal) := by
  simp [Ideal.ofBits, Ideal.ieee, -EReal.coe_mul]; norm_num

end Cert.RealEntries

end
-- ==== Proof.Heads.lean ====
/-
  THE NETWORK ON ONE ROW, and the three identities that let heads be fused.

  One observation row `x` goes through a trunk of two rectified dense layers to a hidden row `g`; each head then applies one
  more rectified dense layer and a final dense layer with a sigmoid.  Three heads read the same `g`:
  • two heads whose hidden layers have `A` and `B` units can be computed as ONE hidden layer of `A + B` units (weights side by
    side) followed by ONE final layer with a block-diagonal weight: column 0 sees the first `A` units through the first
    head's final weights and the last `B` units through zeros, column 1 the other way round.  A product with zero is zero on
    the extended reals whatever the other factor, so nothing needs to be finite (`fused_left`, `fused_right`);
  • a head fed `g` twice side by side, against a weight with `K + K` rows, is the head fed `g` once against the sum of the
    weight's upper and lower halves: `g k · u + g k · l = g k · (u + l)`.  On the extended reals this distributivity needs the
    multiplier `g k` non-negative and finite; a rectified unit is non-negative, and it is finite when the inputs are
    (`layer_twice`).
  No program appears in this module.
-/
import proofs.«118333_j57260503990878_2_alg».proof.Proof.LibRowBias
import proofs.«118333_j57260503990878_2_alg».proof.Proof.LibRealEntries

noncomputable section

open scoped BigOperators

namespace Cert.Heads

open Idealize.ShloMosaic Cert.DenseRow Cert.RowBias Cert.RealEntries

/-! ## Rows side by side -/

theorem cat_left {A B : ℕ} (x : Fin A → EReal) (y : Fin B → EReal) (a : Fin A) :
    cat (rfl : A + B = A + B) x y (Fin.castAdd B a) = x a := by
  unfold cat
  rw [dif_pos (show (Fin.castAdd B a).val < A from a.isLt)]
  rfl

theorem cat_right {A B : ℕ} (x : Fin A → EReal) (y : Fin B → EReal) (b : Fin B) :
    cat (rfl : A + B = A + B) x y (Fin.natAdd A b) = y b := by
  unfold cat
  rw [dif_neg (show ¬ (Fin.natAdd A b).val < A by simp)]
  congr 1
  apply Fin.ext
  simp

/-- A sum over `A + B` positions of products of two side-by-side rows splits into the two sums. -/
theorem sum_cat_mul {A B C : ℕ} (hC : C = A + B) (x u : Fin A → EReal) (y v : Fin B → EReal) :
    ∑ k : Fin C, cat hC x y k * cat hC u v k = ∑ a : Fin A, x a * u a + ∑ b : Fin B, y b * v b := by
  subst hC
  rw [Fin.sum_univ_add]
  congr 1
  · exact Finset.sum_congr rfl fun a _ => by rw [cat_left, cat_left]
  · exact Finset.sum_congr rfl fun b _ => by rw [cat_right, cat_right]

/-- A dense layer whose weight columns and biases are two layers' side by side is the two layers' outputs side by side. -/
theorem layer_cat {K A B C : ℕ} (hC : C = A + B) (g : Fin K → EReal) (Wa : Fin K → Fin A → EReal) (Wb : Fin K → Fin B → EReal)
    (ba : Fin A → EReal) (bb : Fin B → EReal) (j : Fin C) :
    layer g (fun k => cat hC (Wa k) (Wb k)) (cat hC ba bb) j = cat hC (layer g Wa ba) (layer g Wb bb) j := by
  unfold layer cat
  by_cases h : j.val < A
  · simp only [dif_pos h]
  · simp only [dif_neg h]

/-- The activation of two rows side by side is the activations side by side. -/
theorem act_cat {A B C : ℕ} (hC : C = A + B) (z : EReal) (x : Fin A → EReal) (y : Fin B → EReal) (j : Fin C) :
    act z (cat hC x y) j = cat hC (act z x) (act z y) j := by
  unfold act cat
  by_cases h : j.val < A
  · simp only [dif_pos h]
  · simp only [dif_neg h]

/-! ## One head -/

/-- A head: rectified dense layer, dense layer, sigmoid. -/
def head {K M N : ℕ} (g : Fin K → EReal) (W : Fin K → Fin M → EReal) (b : Fin M → EReal) (w2 : Fin M → Fin N → EReal)
    (b2 : Fin N → EReal) (c : Fin N) : EReal :=
  Ideal.logistic (layer (act zf (layer g W b)) w2 b2 c)

/-- The trunk: two rectified dense layers. -/
def trunk {K H : ℕ} (x : Fin K → EReal) (W1 : Fin K → Fin H → EReal) (b1 : Fin H → EReal) (W2 : Fin H → Fin H → EReal)
    (b2 : Fin H → EReal) : Fin H → EReal :=
  act zf (layer (act zf (layer x W1 b1)) W2 b2)

/-- The block-diagonal final weight of two fused heads: rows `0 … A-1` carry the first head's final weights in column 0 and
    the zero level in column 1, rows `A … A+B-1` the zero level in column 0 and the second head's in column 1. -/
def blockDiag {A B C : ℕ} (hC : C = A + B) (wa : Fin A → EReal) (wb : Fin B → EReal) (k : Fin C) (c : Fin 2) : EReal :=
  cat hC (fun a => cat (rfl : 2 = 1 + 1) (fun _ : Fin 1 => wa a) (fun _ : Fin 1 => zf) c)
    (fun b => cat (rfl : 2 = 1 + 1) (fun _ : Fin 1 => zf) (fun _ : Fin 1 => wb b) c) k

theorem zf_zero : zf = 0 := Ideal.ofBits_zero_f32

theorem blockDiag_zero {A B C : ℕ} (hC : C = A + B) (wa : Fin A → EReal) (wb : Fin B → EReal) (k : Fin C) :
    blockDiag hC wa wb k 0 = cat hC wa (fun _ => zf) k := by
  unfold blockDiag cat
  by_cases h : k.val < A
  · simp only [dif_pos h]
    exact dif_pos (by decide)
  · simp only [dif_neg h]
    exact dif_pos (by decide)

theorem blockDiag_one {A B C : ℕ} (hC : C = A + B) (wa : Fin A → EReal) (wb : Fin B → EReal) (k : Fin C) :
    blockDiag hC wa wb k 1 = cat hC (fun _ => zf) wb k := by
  unfold blockDiag cat
  by_cases h : k.val < A
  · simp only [dif_pos h]
    exact dif_neg (by decide)
  · simp only [dif_neg h]
    exact dif_neg (by decide)

/-- The hidden layer of the fused pair is the two heads' hidden layers side by side. -/
theorem hidden_cat {K A B C : ℕ} (hC : C = A + B) (g : Fin K → EReal) (Wa : Fin K → Fin A → EReal) (Wb : Fin K → Fin B → EReal)
    (ba : Fin A → EReal) (bb : Fin B → EReal) :
    act zf (layer g (fun k => cat hC (Wa k) (Wb k)) (cat hC ba bb)) = cat hC (act zf (layer g Wa ba)) (act zf (layer g Wb bb)) := by
  funext j
  rw [show layer g (fun k => cat hC (Wa k) (Wb k)) (cat hC ba bb) = cat hC (layer g Wa ba) (layer g Wb bb) from
    funext fun j => layer_cat hC g Wa Wb ba bb j]
  exact act_cat hC zf _ _ j

/-- The final layer against the block-diagonal weight, column 0: only the first `A` units count. -/
theorem layer_blockDiag_left {A B C : ℕ} (hC : C = A + B) (xa : Fin A → EReal) (xb : Fin B → EReal) (wa : Fin A → EReal)
    (wb : Fin B → EReal) (β : Fin 2 → EReal) :
    layer (cat hC xa xb) (blockDiag hC wa wb) β 0 = layer xa (fun a (_ : Fin 1) => wa a) (fun _ => β 0) 0 := by
  show (∑ k : Fin C, cat hC xa xb k * blockDiag hC wa wb k 0) + β 0 = (∑ a : Fin A, xa a * wa a) + β 0
  rw [Finset.sum_congr rfl fun k _ => by rw [blockDiag_zero], sum_cat_mul]
  simp only [zf_zero, mul_zero, Finset.sum_const_zero, add_zero]

/-- Column 1: only the last `B` units count. -/
theorem layer_blockDiag_right {A B C : ℕ} (hC : C = A + B) (xa : Fin A → EReal) (xb : Fin B → EReal) (wa : Fin A → EReal)
    (wb : Fin B → EReal) (β : Fin 2 → EReal) :
    layer (cat hC xa xb) (blockDiag hC wa wb) β 1 = layer xb (fun b (_ : Fin 1) => wb b) (fun _ => β 1) 0 := by
  show (∑ k : Fin C, cat hC xa xb k * blockDiag hC wa wb k 1) + β 1 = (∑ b : Fin B, xb b * wb b) + β 1
  rw [Finset.sum_congr rfl fun k _ => by rw [blockDiag_one], sum_cat_mul]
  simp only [zf_zero, mul_zero, Finset.sum_const_zero, zero_add]

/-- Column 0 of the fused pair is the first head. -/
theorem fused_left {K A B C : ℕ} (hC : C = A + B) (g : Fin K → EReal) (Wa : Fin K → Fin A → EReal) (Wb : Fin K → Fin B → EReal)
    (ba : Fin A → EReal) (bb : Fin B → EReal) (wa : Fin A → EReal) (wb : Fin B → EReal) (β : Fin 2 → EReal) :
    head g (fun k => cat hC (Wa k) (Wb k)) (cat hC ba bb) (blockDiag hC wa wb) β 0
      = head g Wa ba (fun a (_ : Fin 1) => wa a) (fun _ => β 0) 0 := by
  unfold head
  rw [hidden_cat, layer_blockDiag_left]

/-- Column 1 of the fused pair is the second head. -/
theorem fused_right {K A B C : ℕ} (hC : C = A + B) (g : Fin K → EReal) (Wa : Fin K → Fin A → EReal) (Wb : Fin K → Fin B → EReal)
    (ba : Fin A → EReal) (bb : Fin B → EReal) (wa : Fin A → EReal) (wb : Fin B → EReal) (β : Fin 2 → EReal) :
    head g (fun k => cat hC (Wa k) (Wb k)) (cat hC ba bb) (blockDiag hC wa wb) β 1
      = head g Wb bb (fun b (_ : Fin 1) => wb b) (fun _ => β 1) 0 := by
  unfold head
  rw [hidden_cat, layer_blockDiag_right]

/-! ## The same row twice -/

/-- A dense layer fed the row `g` twice side by side is the layer fed `g` once against the sum of the weight's two halves,
    when every `g k` is non-negative and finite. -/
theorem layer_twice {K N C : ℕ} (hC : C = K + K) (g : Fin K → EReal) (h0 : ∀ k, 0 ≤ g k) (ht : ∀ k, g k ≠ ⊤)
    (W : Fin C → Fin N → EReal) (Wu Wl : Fin K → Fin N → EReal)
    (hu : ∀ k j, Wu k j = W ⟨k.val, by have := k.isLt; omega⟩ j)
    (hl : ∀ k j, Wl k j = W ⟨K + k.val, by have := k.isLt; omega⟩ j) (b : Fin N → EReal) (j : Fin N) :
    layer (cat hC g g) W b j = layer g (fun k j => Wu k j + Wl k j) b j := by
  subst hC
  unfold layer
  congr 1
  rw [Fin.sum_univ_add, ← Finset.sum_add_distrib]
  refine Finset.sum_congr rfl fun k _ => ?_
  rw [cat_left, cat_right, EReal.left_distrib_of_nonneg_of_ne_top (h0 k) (ht k), hu k j, hl k j]
  rfl

/-! ## Finite rows -/

theorem isR_zf : IsR zf := by rw [zf_zero]; exact IsR.zero

/-- A dense layer of real rows, weights and biases is a real row. -/
theorem isR_layer {K N : ℕ} (x : Fin K → EReal) (W : Fin K → Fin N → EReal) (b : Fin N → EReal) (hx : ∀ k, IsR (x k))
    (hW : ∀ k j, IsR (W k j)) (hb : ∀ j, IsR (b j)) (j : Fin N) : IsR (layer x W b j) :=
  (IsR.sum _ _ fun k _ => (hx k).mul (hW k j)).add (hb j)

theorem isR_act {N : ℕ} (x : Fin N → EReal) (hx : ∀ k, IsR (x k)) (j : Fin N) : IsR (act zf x j) := (hx j).max isR_zf

/-- A rectified unit is non-negative. -/
theorem act_nonneg {N : ℕ} (x : Fin N → EReal) (j : Fin N) : 0 ≤ act zf x j := by
  show 0 ≤ max (x j) zf
  rw [zf_zero]
  exact le_max_right _ _

theorem IsR.ne_top {a : EReal} (h : IsR a) : a ≠ ⊤ := by
  obtain ⟨r, rfl⟩ := h
  exact EReal.coe_ne_top r

/-- The trunk's output is real when the observation row and the trunk's parameters are. -/
theorem isR_trunk {K H : ℕ} (x : Fin K → EReal) (W1 : Fin K → Fin H → EReal) (b1 : Fin H → EReal) (W2 : Fin H → Fin H → EReal)
    (b2 : Fin H → EReal) (hx : ∀ k, IsR (x k)) (hW1 : ∀ k j, IsR (W1 k j)) (hb1 : ∀ j, IsR (b1 j))
    (hW2 : ∀ k j, IsR (W2 k j)) (hb2 : ∀ j, IsR (b2 j)) (j : Fin H) : IsR (trunk x W1 b1 W2 b2 j) :=
  isR_act _ (fun k => isR_layer _ W2 b2 (fun k' => isR_act _ (fun k'' => isR_layer x W1 b1 hx hW1 hb1 k'') k') hW2 hb2 k) j

/-! ## The three results, and the packed array two fused heads and the third leave

The arrays are the programs' arguments: observations `[16384, 512]`, trunk parameters, and three heads' parameters.  Each
result `[16384, 9]` repeats one head's number across its nine columns.  A program may instead first pack the three numbers
of a row into an array `[16384, 3]`, the first two columns computed by the fused pair and the third by the head fed
the summed weight; `packed_col0`, `packed_col1`, `packed_col2` say column by column that this is the same. -/

open Idealize.ShloMosaic.ValueIdx

abbrev mat {K N : ℕ} (w : (⟨2, ![K, N]⟩ : Shape).Idx → EReal) : Fin K → Fin N → EReal := fun k j => w (ix2 k j)
abbrev vec {N : ℕ} (b : (⟨1, ![N]⟩ : Shape).Idx → EReal) : Fin N → EReal := fun j => b (ix1 j)

section Net

variable (a0 : (⟨2, ![16384, 512]⟩ : Shape).Idx → EReal) (a2 : (⟨2, ![512, 1024]⟩ : Shape).Idx → EReal)
  (a3 : (⟨1, ![1024]⟩ : Shape).Idx → EReal) (a4 : (⟨2, ![1024, 1024]⟩ : Shape).Idx → EReal) (a5 : (⟨1, ![1024]⟩ : Shape).Idx → EReal)

/-- The trunk's hidden row for observation row `p`. -/
def hiddenRow (p : Fin 16384) : Fin 1024 → EReal :=
  trunk (fun k : Fin 512 => a0 (ix2 p k)) (mat a2) (vec a3) (mat a4) (vec a5)

/-- A result whose head has a 512-unit hidden layer fed the hidden row: one number per row, across nine columns. -/
def outHead (w1 : (⟨2, ![1024, 512]⟩ : Shape).Idx → EReal) (b1 : (⟨1, ![512]⟩ : Shape).Idx → EReal)
    (w2 : (⟨2, ![512, 1]⟩ : Shape).Idx → EReal) (b2 : (⟨1, ![1]⟩ : Shape).Idx → EReal) : (⟨2, ![16384, 9]⟩ : Shape).Idx → EReal :=
  fun i => head (hiddenRow a0 a2 a3 a4 a5 (idxEquiv2 (n0 := 16384) (n1 := 9) i).1) (mat w1) (vec b1) (mat w2) (vec b2) 0

/-- The result whose head is fed the hidden row twice side by side. -/
def outTwice (w1 : (⟨2, ![2048, 1024]⟩ : Shape).Idx → EReal) (b1 : (⟨1, ![1024]⟩ : Shape).Idx → EReal)
    (w2 : (⟨2, ![1024, 1]⟩ : Shape).Idx → EReal) (b2 : (⟨1, ![1]⟩ : Shape).Idx → EReal) : (⟨2, ![16384, 9]⟩ : Shape).Idx → EReal :=
  fun i => head (cat (rfl : 2048 = 1024 + 1024) (hiddenRow a0 a2 a3 a4 a5 (idxEquiv2 (n0 := 16384) (n1 := 9) i).1)
      (hiddenRow a0 a2 a3 a4 a5 (idxEquiv2 (n0 := 16384) (n1 := 9) i).1)) (mat w1) (vec b1) (mat w2) (vec b2) 0

end Net

/-- The sum of the upper and lower halves of a weight with `1024 + 1024` rows. -/
def halvesSum (a14 : (⟨2, ![2048, 1024]⟩ : Shape).Idx → EReal) (k : Fin 1024) (j : Fin 1024) : EReal :=
  a14 (ix2 (⟨k.val, by have := k.isLt; omega⟩ : Fin 2048) j) + a14 (ix2 (⟨1024 + k.val, by have := k.isLt; omega⟩ : Fin 2048) j)

/-- One row of the packed array, from the hidden row `g`: two fused heads and the head against the summed weight. -/
def packedRow (g : Fin 1024 → EReal) (a6 : (⟨2, ![1024, 512]⟩ : Shape).Idx → EReal) (a7 : (⟨1, ![512]⟩ : Shape).Idx → EReal)
    (a8 : (⟨2, ![512, 1]⟩ : Shape).Idx → EReal) (a9 : (⟨1, ![1]⟩ : Shape).Idx → EReal)
    (a10 : (⟨2, ![1024, 512]⟩ : Shape).Idx → EReal) (a11 : (⟨1, ![512]⟩ : Shape).Idx → EReal)
    (a12 : (⟨2, ![512, 1]⟩ : Shape).Idx → EReal) (a13 : (⟨1, ![1]⟩ : Shape).Idx → EReal)
    (a14 : (⟨2, ![2048, 1024]⟩ : Shape).Idx → EReal) (a15 : (⟨1, ![1024]⟩ : Shape).Idx → EReal)
    (a16 : (⟨2, ![1024, 1]⟩ : Shape).Idx → EReal) (a17 : (⟨1, ![1]⟩ : Shape).Idx → EReal) (cc : Fin 3) : EReal :=
  cat (rfl : 3 = 2 + 1)
    (head g (fun k => cat (rfl : 1024 = 512 + 512) (mat a6 k) (mat a10 k)) (cat (rfl : 1024 = 512 + 512) (vec a7) (vec a11))
      (blockDiag (rfl : 1024 = 512 + 512) (fun a => a8 (ix2 a (0 : Fin 1))) (fun b => a12 (ix2 b (0 : Fin 1))))
      (cat (rfl : 2 = 1 + 1) (vec a9) (vec a13)))
    (head g (halvesSum a14) (vec a15) (mat a16) (vec a17)) cc

theorem fin1 (j : Fin 1) : j = 0 := Subsingleton.elim _ _

section Cols

variable (g : Fin 1024 → EReal) (a6 : (⟨2, ![1024, 512]⟩ : Shape).Idx → EReal) (a7 : (⟨1, ![512]⟩ : Shape).Idx → EReal)
    (a8 : (⟨2, ![512, 1]⟩ : Shape).Idx → EReal) (a9 : (⟨1, ![1]⟩ : Shape).Idx → EReal)
    (a10 : (⟨2, ![1024, 512]⟩ : Shape).Idx → EReal) (a11 : (⟨1, ![512]⟩ : Shape).Idx → EReal)
    (a12 : (⟨2, ![512, 1]⟩ : Shape).Idx → EReal) (a13 : (⟨1, ![1]⟩ : Shape).Idx → EReal)
    (a14 : (⟨2, ![2048, 1024]⟩ : Shape).Idx → EReal) (a15 : (⟨1, ![1024]⟩ : Shape).Idx → EReal)
    (a16 : (⟨2, ![1024, 1]⟩ : Shape).Idx → EReal) (a17 : (⟨1, ![1]⟩ : Shape).Idx → EReal)

/-- Column 0 of a packed row is the first head's number. -/
theorem packed_col0 :
    packedRow g a6 a7 a8 a9 a10 a11 a12 a13 a14 a15 a16 a17 0 = head g (mat a6) (vec a7) (mat a8) (vec a9) 0 := by
  unfold packedRow
  refine (cat_left (A := 2) (B := 1) _ _ (0 : Fin 2)).trans ?_
  rw [fused_left]
  have e1 : (fun (a : Fin 512) (_ : Fin 1) => a8 (ix2 a (0 : Fin 1))) = mat a8 := by
    funext a j; rw [fin1 j]
  have e2 : (fun _ : Fin 1 => cat (rfl : 2 = 1 + 1) (vec a9) (vec a13) 0) = vec a9 := by
    funext j; rw [fin1 j]; exact cat_left (A := 1) (B := 1) _ _ (0 : Fin 1)
  rw [e1, e2]

/-- Column 1 is the second head's number. -/
theorem packed_col1 :
    packedRow g a6 a7 a8 a9 a10 a11 a12 a13 a14 a15 a16 a17 1 = head g (mat a10) (vec a11) (mat a12) (vec a13) 0 := by
  unfold packedRow
  refine (cat_left (A := 2) (B := 1) _ _ (1 : Fin 2)).trans ?_
  rw [fused_right]
  have e1 : (fun (b : Fin 512) (_ : Fin 1) => a12 (ix2 b (0 : Fin 1))) = mat a12 := by
    funext a j; rw [fin1 j]
  have e2 : (fun _ : Fin 1 => cat (rfl : 2 = 1 + 1) (vec a9) (vec a13) 1) = vec a13 := by
    funext j; rw [fin1 j]; exact cat_right (A := 1) (B := 1) _ _ (0 : Fin 1)
  rw [e1, e2]

/-- Column 2 is the third head's number, when the hidden row is non-negative and finite. -/
theorem packed_col2 (h0 : ∀ k, 0 ≤ g k) (ht : ∀ k, g k ≠ ⊤) :
    packedRow g a6 a7 a8 a9 a10 a11 a12 a13 a14 a15 a16 a17 2
      = head (cat (rfl : 2048 = 1024 + 1024) g g) (mat a14) (vec a15) (mat a16) (vec a17) 0 := by
  unfold packedRow
  refine (cat_right (A := 2) (B := 1) _ _ (0 : Fin 1)).trans ?_
  unfold head
  rw [show layer (cat (rfl : 2048 = 1024 + 1024) g g) (mat a14) (vec a15) = layer g (halvesSum a14) (vec a15) from
    funext fun j => (layer_twice (rfl : 2048 = 1024 + 1024) g h0 ht (mat a14) _ _ (fun _ _ => rfl) (fun _ _ => rfl) (vec a15) j).trans rfl]

end Cols

end Cert.Heads

end
-- ==== Proof.RefRead.lean ====
/-
  THE REFERENCE, READ ROW BY ROW.

  Every stage of the reference is a function of whole arrays with 16384 rows, and row `p` of each stage depends only on row
  `p` of the observations.  Read at `(p, ·)`, the stages are: the trunk (two rectified dense layers) giving the hidden row
  `g`; for the coverage and tracking heads a rectified dense layer of `g`, a dense layer to one number and the sigmoid; for
  the cooperation head the same on `g` written twice side by side.  Each of the three results repeats its head's one number
  across nine columns.  No sum is regrouped here.
-/
import proofs.«118333_j57260503990878_2_alg».proof.Proof.Gen.ReferenceIdeal.Read
import proofs.«118333_j57260503990878_2_alg».proof.Proof.LibDenseStep
import proofs.«118333_j57260503990878_2_alg».proof.Proof.LibSigmoid
import proofs.«118333_j57260503990878_2_alg».proof.Proof.Heads

noncomputable section

open scoped BigOperators

namespace Cert.ReferenceIdeal.RefValue

open Cert.ReferenceIdeal Cert.ReferenceIdeal.Read Idealize.ShloMosaic Idealize.ShloMosaic.ValueIdx
open Cert.DenseRow Cert.RowBias Cert.DenseStep Cert.Heads Cert.Sigmoid

variable (x0 : FVec Ideal S16384x512 .f32) (x2 : FVec Ideal S512x1024 .f32) (x3 : FVec Ideal S1024 .f32)
  (x4 : FVec Ideal S1024x1024 .f32) (x5 : FVec Ideal S1024 .f32)

/-- The hidden row of the trunk for observation row `p`. -/
def g (p : Fin 16384) : Fin 1024 → EReal :=
  trunk (fun k : Fin 512 => x0 (ix2 p k)) (fun (k : Fin 512) (j : Fin 1024) => x2 (ix2 k j)) (fun j : Fin 1024 => x3 (ix1 j))
    (fun (k : Fin 1024) (j : Fin 1024) => x4 (ix2 k j)) (fun j : Fin 1024 => x5 (ix1 j))

theorem ref_h1 (p : Fin 16384) (c : Fin 1024) :
    val_main_v4 (F := Ideal) x0 x2 x3 (ix2 p c)
      = act zf (layer (fun k : Fin 512 => x0 (ix2 p k)) (fun (k : Fin 512) (j : Fin 1024) => x2 (ix2 k j)) (fun j : Fin 1024 => x3 (ix1 j))) c :=
  hlayer_relu_row dot_S16384x512_S512x1024_S16384x1024_1_0_0_1_n_n rfl rfl (by plain_lhs dot_S16384x512_S512x1024_S16384x1024_1_0_0_1_n_n 512) (by plain_rhs dot_S16384x512_S512x1024_S16384x1024_1_0_0_1_n_n 512) x0 x2 p _ (fun _ => rfl) x3 _ _ _ c

theorem ref_g (p : Fin 16384) (c : Fin 1024) :
    val_main_v9 (F := Ideal) x0 x2 x3 x4 x5 (ix2 p c) = g x0 x2 x3 x4 x5 p c :=
  hlayer_relu_row dot_S16384x1024_S1024x1024_S16384x1024_1_0_0_1_n_n rfl rfl (by plain_lhs dot_S16384x1024_S1024x1024_S16384x1024_1_0_0_1_n_n 1024) (by plain_rhs dot_S16384x1024_S1024x1024_S16384x1024_1_0_0_1_n_n 1024) (val_main_v4 (F := Ideal) x0 x2 x3) x4 p _ (ref_h1 x0 x2 x3 p) x5 _ _ _ c

/-- A head with a 512-unit hidden layer, reading `g`: the coverage head. -/
theorem ref_out0 (x6 : FVec Ideal S1024x512 .f32) (x7 : FVec Ideal S512 .f32) (x8 : FVec Ideal S512x1 .f32) (x9 : FVec Ideal S1 .f32)
    (p : Fin 16384) (n : Fin 9) :
    val_main_v56 (F := Ideal) x0 x2 x3 x4 x5 x6 x7 x8 x9 (ix2 p n)
      = head (g x0 x2 x3 x4 x5 p) (fun (k : Fin 1024) (j : Fin 512) => x6 (ix2 k j)) (fun j : Fin 512 => x7 (ix1 j))
          (fun (k : Fin 512) (j : Fin 1) => x8 (ix2 k j)) (fun j : Fin 1 => x9 (ix1 j)) 0 := by
  have hh : ∀ c : Fin 512, val_main_v14 (F := Ideal) x0 x2 x3 x4 x5 x6 x7 (ix2 p c)
      = act zf (layer (g x0 x2 x3 x4 x5 p) (fun (k : Fin 1024) (j : Fin 512) => x6 (ix2 k j)) (fun j : Fin 512 => x7 (ix1 j))) c := fun c =>
    hlayer_relu_row dot_S16384x1024_S1024x512_S16384x512_1_0_0_1_n_n rfl rfl (by plain_lhs dot_S16384x1024_S1024x512_S16384x512_1_0_0_1_n_n 1024) (by plain_rhs dot_S16384x1024_S1024x512_S16384x512_1_0_0_1_n_n 1024) (val_main_v9 (F := Ideal) x0 x2 x3 x4 x5) x6 p _ (ref_g x0 x2 x3 x4 x5 p) x7 _ _ _ c
  have hl : val_main_v18 (F := Ideal) x0 x2 x3 x4 x5 x6 x7 x8 x9 (ix2 p (0 : Fin 1)) = _ :=
    hlayer_row dot_S16384x512_S512x1_S16384x1_1_0_0_1_n_n rfl rfl (by plain_lhs dot_S16384x512_S512x1_S16384x1_1_0_0_1_n_n 512) (by plain_rhs dot_S16384x512_S512x1_S16384x1_1_0_0_1_n_n 512) (val_main_v14 (F := Ideal) x0 x2 x3 x4 x5 x6 x7) x8 p _ hh x9 _ _ (0 : Fin 1)
  have hs : val_main_v24 (F := Ideal) x0 x2 x3 x4 x5 x6 x7 x8 x9 (ix2 p (0 : Fin 1)) = _ :=
    hlogistic_at (val_main_v18 (F := Ideal) x0 x2 x3 x4 x5 x6 x7 x8 x9) _ _ (ix2 p (0 : Fin 1)) _ hl
  exact (hbcast_col (val_main_v24 (F := Ideal) x0 x2 x3 x4 x5 x6 x7 x8 x9) _ p n).trans hs

/-- The tracking head: the same shape with its own parameters. -/
theorem ref_out1 (x10 : FVec Ideal S1024x512 .f32) (x11 : FVec Ideal S512 .f32) (x12 : FVec Ideal S512x1 .f32) (x13 : FVec Ideal S1 .f32)
    (p : Fin 16384) (n : Fin 9) :
    val_main_v57 (F := Ideal) x0 x2 x3 x4 x5 x10 x11 x12 x13 (ix2 p n)
      = head (g x0 x2 x3 x4 x5 p) (fun (k : Fin 1024) (j : Fin 512) => x10 (ix2 k j)) (fun j : Fin 512 => x11 (ix1 j))
          (fun (k : Fin 512) (j : Fin 1) => x12 (ix2 k j)) (fun j : Fin 1 => x13 (ix1 j)) 0 := by
  have hh : ∀ c : Fin 512, val_main_v29 (F := Ideal) x0 x2 x3 x4 x5 x10 x11 (ix2 p c)
      = act zf (layer (g x0 x2 x3 x4 x5 p) (fun (k : Fin 1024) (j : Fin 512) => x10 (ix2 k j)) (fun j : Fin 512 => x11 (ix1 j))) c := fun c =>
    hlayer_relu_row dot_S16384x1024_S1024x512_S16384x512_1_0_0_1_n_n rfl rfl (by plain_lhs dot_S16384x1024_S1024x512_S16384x512_1_0_0_1_n_n 1024) (by plain_rhs dot_S16384x1024_S1024x512_S16384x512_1_0_0_1_n_n 1024) (val_main_v9 (F := Ideal) x0 x2 x3 x4 x5) x10 p _ (ref_g x0 x2 x3 x4 x5 p) x11 _ _ _ c
  have hl : val_main_v33 (F := Ideal) x0 x2 x3 x4 x5 x10 x11 x12 x13 (ix2 p (0 : Fin 1)) = _ :=
    hlayer_row dot_S16384x512_S512x1_S16384x1_1_0_0_1_n_n rfl rfl (by plain_lhs dot_S16384x512_S512x1_S16384x1_1_0_0_1_n_n 512) (by plain_rhs dot_S16384x512_S512x1_S16384x1_1_0_0_1_n_n 512) (val_main_v29 (F := Ideal) x0 x2 x3 x4 x5 x10 x11) x12 p _ hh x13 _ _ (0 : Fin 1)
  have hs : val_main_v39 (F := Ideal) x0 x2 x3 x4 x5 x10 x11 x12 x13 (ix2 p (0 : Fin 1)) = _ :=
    hlogistic_at (val_main_v33 (F := Ideal) x0 x2 x3 x4 x5 x10 x11 x12 x13) _ _ (ix2 p (0 : Fin 1)) _ hl
  exact (hbcast_col (val_main_v39 (F := Ideal) x0 x2 x3 x4 x5 x10 x11 x12 x13) _ p n).trans hs

/-- The cooperation head reads `g` twice side by side. -/
theorem ref_out2 (x14 : FVec Ideal S2048x1024 .f32) (x15 : FVec Ideal S1024 .f32) (x16 : FVec Ideal S1024x1 .f32) (x17 : FVec Ideal S1 .f32)
    (p : Fin 16384) (n : Fin 9) :
    val_main_v58 (F := Ideal) x0 x2 x3 x4 x5 x14 x15 x16 x17 (ix2 p n)
      = head (cat (rfl : 2048 = 1024 + 1024) (g x0 x2 x3 x4 x5 p) (g x0 x2 x3 x4 x5 p))
          (fun (k : Fin 2048) (j : Fin 1024) => x14 (ix2 k j)) (fun j : Fin 1024 => x15 (ix1 j))
          (fun (k : Fin 1024) (j : Fin 1) => x16 (ix2 k j)) (fun j : Fin 1 => x17 (ix1 j)) 0 := by
  have hgg : ∀ k : Fin 2048, val_main_v40 (F := Ideal) x0 x2 x3 x4 x5 (ix2 p k)
      = cat (rfl : 2048 = 1024 + 1024) (g x0 x2 x3 x4 x5 p) (g x0 x2 x3 x4 x5 p) k := fun k => by
    refine (concat_cols_apply (rfl : 2048 = 1024 + 1024) (val_main_v9 (F := Ideal) x0 x2 x3 x4 x5) (val_main_v9 (F := Ideal) x0 x2 x3 x4 x5) _ p k).trans ?_
    rw [show (fun a : Fin 1024 => val_main_v9 (F := Ideal) x0 x2 x3 x4 x5 (ix2 p a)) = g x0 x2 x3 x4 x5 p from
      funext fun a => ref_g x0 x2 x3 x4 x5 p a]
  have hh : ∀ c : Fin 1024, val_main_v45 (F := Ideal) x0 x2 x3 x4 x5 x14 x15 (ix2 p c) = _ := fun c =>
    hlayer_relu_row dot_S16384x2048_S2048x1024_S16384x1024_1_0_0_1_n_n rfl rfl (by plain_lhs dot_S16384x2048_S2048x1024_S16384x1024_1_0_0_1_n_n 2048) (by plain_rhs dot_S16384x2048_S2048x1024_S16384x1024_1_0_0_1_n_n 2048) (val_main_v40 (F := Ideal) x0 x2 x3 x4 x5) x14 p _ hgg x15 _ _ _ c
  have hl : val_main_v49 (F := Ideal) x0 x2 x3 x4 x5 x14 x15 x16 x17 (ix2 p (0 : Fin 1)) = _ :=
    hlayer_row dot_S16384x1024_S1024x1_S16384x1_1_0_0_1_n_n rfl rfl (by plain_lhs dot_S16384x1024_S1024x1_S16384x1_1_0_0_1_n_n 1024) (by plain_rhs dot_S16384x1024_S1024x1_S16384x1_1_0_0_1_n_n 1024) (val_main_v45 (F := Ideal) x0 x2 x3 x4 x5 x14 x15) x16 p _ hh x17 _ _ (0 : Fin 1)
  have hs : val_main_v55 (F := Ideal) x0 x2 x3 x4 x5 x14 x15 x16 x17 (ix2 p (0 : Fin 1)) = _ :=
    hlogistic_at (val_main_v49 (F := Ideal) x0 x2 x3 x4 x5 x14 x15 x16 x17) _ _ (ix2 p (0 : Fin 1)) _ hl
  exact (hbcast_col (val_main_v55 (F := Ideal) x0 x2 x3 x4 x5 x14 x15 x16 x17) _ p n).trans hs

end Cert.ReferenceIdeal.RefValue

end
-- ==== Proof.LibJoin.lean ====
/-
  JOINS AND SLICES READ AT AN INDEX, generic in the extents.

  Beside LibDenseRow's join along the columns: two arrays `[A, N]` and `[B, N]` joined along the rows, read at `(k, c)`
  (`concat_rows_apply`); two vectors `[A]` and `[B]` joined, read at `k` (`concat_vec_apply`); a block of rows cut out of a
  taller array, read at `(k, j)` (`slice_rows_apply`); one column cut out of an array, read at `(p, 0)`
  (`slice_col_apply`).  Each entry of a join comes from one of the two pieces, chosen by its coordinate on the joined axis:
  LibDenseRow's `cat`.  No algebra of the extended reals is used.
-/
import proofs.«118333_j57260503990878_2_alg».proof.Proof.LibDenseRow

noncomputable section

namespace Cert.Join

open Idealize.ShloMosaic Idealize.ShloMosaic.ValueIdx Cert.DenseRow

/-- `[A, N]` over `[B, N]`, joined along axis 0, read at `(k, c)`. -/
theorem concat_rows_apply {A B C N : ℕ} (hC : C = A + B)
    (x₁ : (⟨2, ![A, N]⟩ : Shape).Idx → EReal) (x₂ : (⟨2, ![B, N]⟩ : Shape).Idx → EReal)
    (h : Shape.Concatenates [(⟨2, ![A, N]⟩ : Shape), ⟨2, ![B, N]⟩] ⟨2, ![C, N]⟩ (0 : Fin 2)) (k : Fin C) (c : Fin N) :
    concatenate ⟨2, ![C, N]⟩ (0 : Fin 2) [⟨⟨2, ![A, N]⟩, x₁⟩, ⟨⟨2, ![B, N]⟩, x₂⟩] h (ix2 k c)
      = cat hC (fun a => x₁ (ix2 a c)) (fun b => x₂ (ix2 b c)) k := by
  unfold cat
  by_cases hk : k.val < A
  · rw [dif_pos hk]
    refine concatenate_pair_apply_left (0 : Fin 2) x₁ x₂ h (ix2 k c) rfl (ix2 ⟨k.val, hk⟩ c) fun b => ?_
    match b with
    | ⟨0, _⟩ => rfl
    | ⟨1, _⟩ => rfl
  · rw [dif_neg hk]
    have hkC := k.isLt
    refine concatenate_pair_apply_right (0 : Fin 2) x₁ x₂ h (ix2 k c) rfl rfl (ix2 ⟨k.val - A, by omega⟩ c) (fun b hb => ?_) ?_
    · match b with
      | ⟨0, _⟩ => exact absurd rfl hb
      | ⟨1, _⟩ => rfl
    · show (k.val - A) + A = k.val
      omega

/-- Two vectors joined, read at `k`. -/
theorem concat_vec_apply {A B C : ℕ} (hC : C = A + B)
    (x₁ : (⟨1, ![A]⟩ : Shape).Idx → EReal) (x₂ : (⟨1, ![B]⟩ : Shape).Idx → EReal)
    (h : Shape.Concatenates [(⟨1, ![A]⟩ : Shape), ⟨1, ![B]⟩] ⟨1, ![C]⟩ (0 : Fin 1)) (k : Fin C) :
    concatenate ⟨1, ![C]⟩ (0 : Fin 1) [⟨⟨1, ![A]⟩, x₁⟩, ⟨⟨1, ![B]⟩, x₂⟩] h (ix1 k)
      = cat hC (fun a => x₁ (ix1 a)) (fun b => x₂ (ix1 b)) k := by
  unfold cat
  by_cases hk : k.val < A
  · rw [dif_pos hk]
    refine concatenate_pair_apply_left (0 : Fin 1) x₁ x₂ h (ix1 k) rfl (ix1 ⟨k.val, hk⟩) fun b => ?_
    match b with
    | ⟨0, _⟩ => rfl
  · rw [dif_neg hk]
    have hkC := k.isLt
    refine concatenate_pair_apply_right (0 : Fin 1) x₁ x₂ h (ix1 k) rfl rfl (ix1 ⟨k.val - A, by omega⟩) (fun b hb => ?_) ?_
    · match b with
      | ⟨0, _⟩ => exact absurd rfl hb
    · show (k.val - A) + A = k.val
      omega

/-- `R` rows cut out of a taller array from row `off` on, read at `(k, j)`: row `off + k` of the array. -/
theorem slice_rows_apply {R R' N : ℕ} (off : ℕ) (x : (⟨2, ![R', N]⟩ : Shape).Idx → EReal)
    (h : (⟨2, ![R', N]⟩ : Shape).Slices ![off, 0] ⟨2, ![R, N]⟩) (k : Fin R) (j : Fin N) (k' : Fin R') (hk : k'.val = off + k.val) :
    extractStridedSlice ⟨2, ![R, N]⟩ ![off, 0] x h (ix2 k j) = x (ix2 k' j) :=
  extractStridedSlice_apply ![off, 0] x h (ix2 k j) (ix2 k' j) fun a => by
    match a with
    | ⟨0, _⟩ => exact hk
    | ⟨1, _⟩ => exact (Nat.zero_add _).symm

/-- Column `c0` cut out of an array, read at `(p, 0)`. -/
theorem slice_col_apply {R N : ℕ} (c0 : ℕ) (x : (⟨2, ![R, N]⟩ : Shape).Idx → EReal)
    (h : (⟨2, ![R, N]⟩ : Shape).Slices ![0, c0] ⟨2, ![R, 1]⟩) (p : Fin R) (u : Fin 1) (c : Fin N) (hc : c.val = c0) :
    extractStridedSlice ⟨2, ![R, 1]⟩ ![0, c0] x h (ix2 p u) = x (ix2 p c) :=
  extractStridedSlice_apply ![0, c0] x h (ix2 p u) (ix2 p c) fun a => by
    match a with
    | ⟨0, _⟩ => exact (Nat.zero_add _).symm
    | ⟨1, _⟩ =>
      show c.val = c0 + u.val
      have := u.isLt
      omega

end Cert.Join

end
-- ==== Proof.KernelHostA.lean ====
/-
  THE ARRAYS THE KERNEL IS LAUNCHED ON, entry by entry (first part).

  Before the launch the program prepares thirteen arrays from its arguments: the observations and the plain weights change
  number format only (the identity at the ideal values); each bias vector becomes a one-row array; the two first-layer
  weights of the fused heads are set side by side, and so are their biases.
-/
import proofs.«118333_j57260503990878_2_alg».proof.Proof.Gen.KernelIdeal.Frame
import proofs.«118333_j57260503990878_2_alg».proof.Proof.LibDenseStep
import proofs.«118333_j57260503990878_2_alg».proof.Proof.LibJoin
import proofs.«118333_j57260503990878_2_alg».proof.Proof.Heads
import Idealize.ShloMosaic.Lib.StableHlo.Run

noncomputable section

namespace Cert.KernelIdeal.HostA

open Cert.KernelIdeal Cert.KernelIdeal.Gen Idealize.ShloMosaic Idealize.ShloMosaic.TcCoe Idealize.SL.Sem Idealize.ShloMosaic.StableHlo
open Idealize.ShloMosaic.ValueIdx Cert.DenseRow Cert.RowBias Cert.DenseStep Cert.Join Cert.Heads

variable (m : (ℓ : Loc nD τ sig) → Buf (Elt Ideal) ℓ) (c : Dev nD)

theorem obs_at (p : Fin 16384) (k : Fin 512) :
    (V (F := Ideal) m c main_v22 : S16384x512.Idx → EReal) (ix2 p k) = (m ((c : Thread nD τ).loc main_arg0)) (ix2 p k) := by
  have e : (V (F := Ideal) m c main_v22 : S16384x512.Idx → EReal) = ((m ((c : Thread nD τ).loc main_arg0)) : FVec Ideal S16384x512 .f32) := by
    show StableHlo.after hostOps0 (fun b => m (c, b)) (Proc.devRef .tc main_v22) = _
    after_results
    all_goals rfl
  rw [e]

theorem w1_at (k : Fin 512) (j : Fin 1024) :
    (V (F := Ideal) m c main_v15 : S512x1024.Idx → EReal) (ix2 k j) = (m ((c : Thread nD τ).loc main_arg2)) (ix2 k j) := by
  have e : (V (F := Ideal) m c main_v15 : S512x1024.Idx → EReal) = ((m ((c : Thread nD τ).loc main_arg2)) : FVec Ideal S512x1024 .f32) := by
    show StableHlo.after hostOps0 (fun b => m (c, b)) (Proc.devRef .tc main_v15) = _
    after_results
    all_goals rfl
  rw [e]

theorem b1_at (j : Fin 1024) :
    (V (F := Ideal) m c main_v18 : S1x1024.Idx → EReal) (ix2 (0 : Fin 1) j) = (m ((c : Thread nD τ).loc main_arg3)) (ix1 j) := by
  have e : (V (F := Ideal) m c main_v18 : S1x1024.Idx → EReal) = shapeCast S1x1024 (m ((c : Thread nD τ).loc main_arg3)) shapeCasts_S1024_S1x1024 := by
    show StableHlo.after hostOps0 (fun b => m (c, b)) (Proc.devRef .tc main_v18) = _
    after_results
    all_goals rfl
  rw [e]
  exact shapeCast_a_1a_apply _ _ 0 j

theorem w2_at (k : Fin 1024) (j : Fin 1024) :
    (V (F := Ideal) m c main_v16 : S1024x1024.Idx → EReal) (ix2 k j) = (m ((c : Thread nD τ).loc main_arg4)) (ix2 k j) := by
  have e : (V (F := Ideal) m c main_v16 : S1024x1024.Idx → EReal) = ((m ((c : Thread nD τ).loc main_arg4)) : FVec Ideal S1024x1024 .f32) := by
    show StableHlo.after hostOps0 (fun b => m (c, b)) (Proc.devRef .tc main_v16) = _
    after_results
    all_goals rfl
  rw [e]

theorem b2_at (j : Fin 1024) :
    (V (F := Ideal) m c main_v19 : S1x1024.Idx → EReal) (ix2 (0 : Fin 1) j) = (m ((c : Thread nD τ).loc main_arg5)) (ix1 j) := by
  have e : (V (F := Ideal) m c main_v19 : S1x1024.Idx → EReal) = shapeCast S1x1024 (m ((c : Thread nD τ).loc main_arg5)) shapeCasts_S1024_S1x1024 := by
    show StableHlo.after hostOps0 (fun b => m (c, b)) (Proc.devRef .tc main_v19) = _
    after_results
    all_goals rfl
  rw [e]
  exact shapeCast_a_1a_apply _ _ 0 j

/-- The fused first-layer weight: the two heads' weights side by side. -/
theorem wct1_at (k : Fin 1024) (j : Fin 1024) :
    (V (F := Ideal) m c main_v5 : S1024x1024.Idx → EReal) (ix2 k j)
      = cat (rfl : 1024 = 512 + 512) (mat (m ((c : Thread nD τ).loc main_arg6)) k) (mat (m ((c : Thread nD τ).loc main_arg10)) k) j := by
  have e : (V (F := Ideal) m c main_v5 : S1024x1024.Idx → EReal) = (concatenate S1024x1024 1 [⟨S1024x512, (m ((c : Thread nD τ).loc main_arg6))⟩, ⟨S1024x512, (m ((c : Thread nD τ).loc main_arg10))⟩] concatenates_S1024x512_S1024x512_S1024x1024_d1 : FVec Ideal S1024x1024 .f32) := by
    show StableHlo.after hostOps0 (fun b => m (c, b)) (Proc.devRef .tc main_v5) = _
    after_results
    all_goals rfl
  rw [e]
  exact concat_cols_apply (rfl : 1024 = 512 + 512) _ _ _ k j

set_option maxHeartbeats 2000000 in
/-- The fused first-layer bias. -/
theorem bct1_at (j : Fin 1024) :
    (V (F := Ideal) m c main_v7 : S1x1024.Idx → EReal) (ix2 (0 : Fin 1) j)
      = cat (rfl : 1024 = 512 + 512) (vec (m ((c : Thread nD τ).loc main_arg7))) (vec (m ((c : Thread nD τ).loc main_arg11))) j := by
  have e : (V (F := Ideal) m c main_v7 : S1x1024.Idx → EReal) = shapeCast S1x1024 (concatenate S1024 0 [⟨S512, (m ((c : Thread nD τ).loc main_arg7))⟩, ⟨S512, (m ((c : Thread nD τ).loc main_arg11))⟩] concatenates_S512_S512_S1024_d0) shapeCasts_S1024_S1x1024 := by
    show StableHlo.after hostOps0 (fun b => m (c, b)) (Proc.devRef .tc main_v7) = _
    after_results
    all_goals rfl
  rw [e]
  refine (shapeCast_a_1a_apply _ _ 0 j).trans ?_
  exact concat_vec_apply (rfl : 1024 = 512 + 512) _ _ _ j

end Cert.KernelIdeal.HostA

end
-- ==== Proof.KernelHostB.lean ====
/-
  THE ARRAYS THE KERNEL IS LAUNCHED ON, entry by entry (second part).

  The fused final weight is block-diagonal: the first head's final weights beside a column of zeros, over a column of
  zeros beside the second head's.  The third head's first-layer weight is the sum of the upper and lower halves of the
  argument with `1024 + 1024` rows.  The remaining biases become one-row arrays; the last weight changes number format
  only.
-/
import proofs.«118333_j57260503990878_2_alg».proof.Proof.Gen.KernelIdeal.Frame
import proofs.«118333_j57260503990878_2_alg».proof.Proof.LibDenseStep
import proofs.«118333_j57260503990878_2_alg».proof.Proof.LibJoin
import proofs.«118333_j57260503990878_2_alg».proof.Proof.Heads
import Idealize.ShloMosaic.Lib.StableHlo.Run

noncomputable section

namespace Cert.KernelIdeal.HostB

open Cert.KernelIdeal Cert.KernelIdeal.Gen Idealize.ShloMosaic Idealize.ShloMosaic.TcCoe Idealize.SL.Sem Idealize.ShloMosaic.StableHlo
open Idealize.ShloMosaic.ValueIdx Cert.DenseRow Cert.RowBias Cert.DenseStep Cert.Join Cert.Heads

variable (m : (ℓ : Loc nD τ sig) → Buf (Elt Ideal) ℓ) (c : Dev nD)

/-- Side-by-side rows agree when their halves do. -/
theorem cat_congr {A B C : ℕ} (hC : C = A + B) {x x' : Fin A → EReal} {y y' : Fin B → EReal} (hx : ∀ a, x a = x' a)
    (hy : ∀ b, y b = y' b) (k : Fin C) : cat hC x y k = cat hC x' y' k := by
  rw [funext hx, funext hy]

set_option maxHeartbeats 2000000 in
theorem wct2_at (k : Fin 1024) (cc : Fin 2) :
    (V (F := Ideal) m c main_v12 : S1024x2.Idx → EReal) (ix2 k cc)
      = blockDiag (rfl : 1024 = 512 + 512) (fun a => (m ((c : Thread nD τ).loc main_arg8)) (ix2 a (0 : Fin 1))) (fun b => (m ((c : Thread nD τ).loc main_arg12)) (ix2 b (0 : Fin 1))) k cc := by
  have e : (V (F := Ideal) m c main_v12 : S1024x2.Idx → EReal) = (concatenate S1024x2 0 [⟨S512x2, concatenate S512x2 1 [⟨S512x1, (m ((c : Thread nD τ).loc main_arg8))⟩, ⟨S512x1, broadcastInDim S512x1 ![] bcast_S_S512x1 (constant (F := Ideal) S_ .f32 0x00000000#32)⟩] concatenates_S512x1_S512x1_S512x2_d1⟩, ⟨S512x2, concatenate S512x2 1 [⟨S512x1, broadcastInDim S512x1 ![] bcast_S_S512x1 (constant (F := Ideal) S_ .f32 0x00000000#32)⟩, ⟨S512x1, (m ((c : Thread nD τ).loc main_arg12))⟩] concatenates_S512x1_S512x1_S512x2_d1⟩] concatenates_S512x2_S512x2_S1024x2_d0 : FVec Ideal S1024x2 .f32) := by
    show StableHlo.after hostOps0 (fun b => m (c, b)) (Proc.devRef .tc main_v12) = _
    after_results
    all_goals rfl
  rw [e]
  refine (concat_rows_apply (rfl : 1024 = 512 + 512) _ _ _ k cc).trans ?_
  unfold blockDiag
  refine cat_congr _ (fun a => ?_) (fun b => ?_) k
  · refine (concat_cols_apply (rfl : 2 = 1 + 1) _ _ _ a cc).trans ?_
    exact cat_congr _ (fun a' => by rw [Cert.Heads.fin1 a']) (fun b' => hconst _ _ _) cc
  · refine (concat_cols_apply (rfl : 2 = 1 + 1) _ _ _ b cc).trans ?_
    exact cat_congr _ (fun a' => hconst _ _ _) (fun b' => by rw [Cert.Heads.fin1 b']) cc

set_option maxHeartbeats 2000000 in
theorem bct2_at (j : Fin 2) :
    (V (F := Ideal) m c main_v14 : S1x2.Idx → EReal) (ix2 (0 : Fin 1) j)
      = cat (rfl : 2 = 1 + 1) (vec (m ((c : Thread nD τ).loc main_arg9))) (vec (m ((c : Thread nD τ).loc main_arg13))) j := by
  have e : (V (F := Ideal) m c main_v14 : S1x2.Idx → EReal) = shapeCast S1x2 (concatenate S2 0 [⟨S1, (m ((c : Thread nD τ).loc main_arg9))⟩, ⟨S1, (m ((c : Thread nD τ).loc main_arg13))⟩] concatenates_S1_S1_S2_d0) shapeCasts_S2_S1x2 := by
    show StableHlo.after hostOps0 (fun b => m (c, b)) (Proc.devRef .tc main_v14) = _
    after_results
    all_goals rfl
  rw [e]
  refine (shapeCast_a_1a_apply _ _ 0 j).trans ?_
  exact concat_vec_apply (rfl : 2 = 1 + 1) _ _ _ j

/-- The third head's first-layer weight: upper half plus lower half. -/
theorem wk1_at (k : Fin 1024) (j : Fin 1024) :
    (V (F := Ideal) m c main_v3 : S1024x1024.Idx → EReal) (ix2 k j) = halvesSum (m ((c : Thread nD τ).loc main_arg14)) k j := by
  have e : (V (F := Ideal) m c main_v3 : S1024x1024.Idx → EReal) = (addf (extractStridedSlice S1024x1024 ![0, 0] (m ((c : Thread nD τ).loc main_arg14)) slices_S2048x1024_S1024x1024_0_0) (extractStridedSlice S1024x1024 ![1024, 0] (m ((c : Thread nD τ).loc main_arg14)) slices_S2048x1024_S1024x1024_1024_0) : FVec Ideal S1024x1024 .f32) := by
    show StableHlo.after hostOps0 (fun b => m (c, b)) (Proc.devRef .tc main_v3) = _
    after_results
    all_goals rfl
  rw [e]
  exact congrArg₂ (fun u v : EReal => u + v)
    (slice_rows_apply 0 (m ((c : Thread nD τ).loc main_arg14)) _ k j ⟨k.val, by have := k.isLt; omega⟩ (Nat.zero_add _).symm)
    (slice_rows_apply 1024 (m ((c : Thread nD τ).loc main_arg14)) _ k j ⟨1024 + k.val, by have := k.isLt; omega⟩ rfl)

theorem bk1_at (j : Fin 1024) :
    (V (F := Ideal) m c main_v20 : S1x1024.Idx → EReal) (ix2 (0 : Fin 1) j) = (m ((c : Thread nD τ).loc main_arg15)) (ix1 j) := by
  have e : (V (F := Ideal) m c main_v20 : S1x1024.Idx → EReal) = shapeCast S1x1024 (m ((c : Thread nD τ).loc main_arg15)) shapeCasts_S1024_S1x1024 := by
    show StableHlo.after hostOps0 (fun b => m (c, b)) (Proc.devRef .tc main_v20) = _
    after_results
    all_goals rfl
  rw [e]
  exact shapeCast_a_1a_apply _ _ 0 j

theorem wk2_at (k : Fin 1024) (j : Fin 1) :
    (V (F := Ideal) m c main_v17 : S1024x1.Idx → EReal) (ix2 k j) = (m ((c : Thread nD τ).loc main_arg16)) (ix2 k j) := by
  have e : (V (F := Ideal) m c main_v17 : S1024x1.Idx → EReal) = ((m ((c : Thread nD τ).loc main_arg16)) : FVec Ideal S1024x1 .f32) := by
    show StableHlo.after hostOps0 (fun b => m (c, b)) (Proc.devRef .tc main_v17) = _
    after_results
    all_goals rfl
  rw [e]

theorem bk2_at (j : Fin 1) :
    (V (F := Ideal) m c main_v21 : S1x1.Idx → EReal) (ix2 (0 : Fin 1) j) = (m ((c : Thread nD τ).loc main_arg17)) (ix1 j) := by
  have e : (V (F := Ideal) m c main_v21 : S1x1.Idx → EReal) = shapeCast S1x1 (m ((c : Thread nD τ).loc main_arg17)) shapeCasts_S1_S1x1 := by
    show StableHlo.after hostOps0 (fun b => m (c, b)) (Proc.devRef .tc main_v21) = _
    after_results
    all_goals rfl
  rw [e]
  exact shapeCast_a_1a_apply _ _ 0 j

end Cert.KernelIdeal.HostB

end
-- ==== Proof.KernelBody.lean ====
/-
  WHAT THE KERNEL BODY LEAVES IN ITS OUTPUT BLOCK, entry by entry.

  At one grid point the body holds a block of 1024 observation rows and all the parameters whole.  It stores one
  `[1024, 3]` block: for row `p` of the block, columns 0 and 1 are the fused pair of heads and column 2 the third head, all
  three read off the trunk's hidden row of observation row `p`.  Stated over arbitrary loaded values, with what their
  entries are as hypotheses: the row `p` of the observations block, the weight matrices entry by entry, each bias's one
  row.  Number-format changes are the identity at the ideal values.  No sum is regrouped here.
-/
import proofs.«118333_j57260503990878_2_alg».proof.Proof.Gen.KernelIdeal.Frame
import proofs.«118333_j57260503990878_2_alg».proof.Proof.LibDenseStep
import proofs.«118333_j57260503990878_2_alg».proof.Proof.LibSigmoid
import proofs.«118333_j57260503990878_2_alg».proof.Proof.Heads

noncomputable section

namespace Cert.KernelIdeal.Body

open Cert.KernelIdeal Cert.KernelIdeal.Gen Idealize.ShloMosaic Idealize.ShloMosaic.ValueIdx
open Cert.DenseRow Cert.RowBias Cert.DenseStep Cert.Heads Cert.Sigmoid

theorem hz : (![0, 0] : Fin 2 → Nat) = fun _ => 0 := funext fun a => by fin_cases a <;> rfl

variable (x0 : Vec Ideal S1024x512 .bf16) (x1 : Vec Ideal S512x1024 .bf16) (x2 : Vec Ideal S1x1024 .f32)
  (x3 : Vec Ideal S1024x1024 .bf16) (x4 : Vec Ideal S1x1024 .f32) (x5 : Vec Ideal S1024x1024 .bf16) (x6 : Vec Ideal S1x1024 .f32)
  (x7 : Vec Ideal S1024x2 .bf16) (x8 : Vec Ideal S1x2 .f32) (x9 : Vec Ideal S1024x1024 .bf16) (x10 : Vec Ideal S1x1024 .f32)
  (x11 : Vec Ideal S1024x1 .bf16) (x12 : Vec Ideal S1x1 .f32)

/-- The trunk's hidden row, off the body's second rectified layer. -/
theorem hidden_at (p : Fin 1024) (xr : Fin 512 → EReal) (W1 : Fin 512 → Fin 1024 → EReal) (W2 : Fin 1024 → Fin 1024 → EReal)
    (h0 : ∀ k, x0 (ix2 p k) = xr k) (h1 : ∀ k j, x1 (ix2 k j) = W1 k j) (h3 : ∀ k j, x3 (ix2 k j) = W2 k j) (k : Fin 1024) :
    k0_pay2 x0 x1 x2 x3 x4 (ix2 p k)
      = trunk xr W1 (fun j => x2 (ix2 (0 : Fin 1) j)) W2 (fun j => x4 (ix2 (0 : Fin 1) j)) k := by
  unfold k0_pay2
  try dsimp only
  exact klayer_relu_row dot_S1024x1024_S1024x1024_S1024x1024_1_0_0_1_n_n rfl rfl (by plain_lhs dot_S1024x1024_S1024x1024_S1024x1024_1_0_0_1_n_n 1024) (by plain_rhs dot_S1024x1024_S1024x1024_S1024x1024_1_0_0_1_n_n 1024) _ _ p _
    (fun k' => klayer_relu_row dot_S1024x512_S512x1024_S1024x1024_1_0_0_1_n_n rfl rfl (by plain_lhs dot_S1024x512_S512x1024_S1024x1024_1_0_0_1_n_n 512) (by plain_rhs dot_S1024x512_S512x1024_S1024x1024_1_0_0_1_n_n 512) _ _ p xr
      (fun k'' => (self_cast x0 _ p k'').trans (h0 k'')) W1 (fun a b => (self_cast x1 _ a b).trans (h1 a b)) x2 _ _ k')
    W2 (fun a b => (self_cast x3 _ a b).trans (h3 a b)) x4 _ _ k

/-- The fused pair of heads, before the columns are joined. -/
theorem pair_at (p : Fin 1024) (g : Fin 1024 → EReal) (hg : ∀ k, k0_pay2 x0 x1 x2 x3 x4 (ix2 p k) = g k)
    (Wc : Fin 1024 → Fin 1024 → EReal) (Wd : Fin 1024 → Fin 2 → EReal)
    (h5 : ∀ k j, x5 (ix2 k j) = Wc k j) (h7 : ∀ k j, x7 (ix2 k j) = Wd k j) (c2 : Fin 2) :
    logistic (addf (k0_pay3 x0 x1 x2 x3 x4 x5 x6 x7) (broadcastTo S1024x2 (shapeCast S1x2 x8 shapeCasts_S1x2_S1x2) broadcasts_S1x2_S1024x2)) (ix2 p c2)
      = head g Wc (fun j => x6 (ix2 (0 : Fin 1) j)) Wd (fun j => x8 (ix2 (0 : Fin 1) j)) c2 := by
  refine klogistic_at _ _ _ ?_
  unfold k0_pay3
  try dsimp only
  exact klayer_row dot_S1024x1024_S1024x2_S1024x2_1_0_0_1_n_n rfl rfl (by plain_lhs dot_S1024x1024_S1024x2_S1024x2_1_0_0_1_n_n 1024) (by plain_rhs dot_S1024x1024_S1024x2_S1024x2_1_0_0_1_n_n 1024) _ _ p _
    (fun k' => klayer_relu_row dot_S1024x1024_S1024x1024_S1024x1024_1_0_0_1_n_n rfl rfl (by plain_lhs dot_S1024x1024_S1024x1024_S1024x1024_1_0_0_1_n_n 1024) (by plain_rhs dot_S1024x1024_S1024x1024_S1024x1024_1_0_0_1_n_n 1024) (k0_pay2 x0 x1 x2 x3 x4) _ p g hg
      Wc (fun a b => (self_cast x5 _ a b).trans (h5 a b)) x6 _ _ k')
    Wd (fun a b => (self_cast x7 _ a b).trans (h7 a b)) x8 _ _ c2

/-- The block's entry `(p, cc)`. -/
theorem block_at (p : Fin 1024) (cc : Fin 3) (xr : Fin 512 → EReal) (W1 : Fin 512 → Fin 1024 → EReal) (W2 : Fin 1024 → Fin 1024 → EReal)
    (Wc : Fin 1024 → Fin 1024 → EReal) (Wd : Fin 1024 → Fin 2 → EReal) (Wk : Fin 1024 → Fin 1024 → EReal) (Wl : Fin 1024 → Fin 1 → EReal)
    (h0 : ∀ k, x0 (ix2 p k) = xr k) (h1 : ∀ k j, x1 (ix2 k j) = W1 k j) (h3 : ∀ k j, x3 (ix2 k j) = W2 k j)
    (h5 : ∀ k j, x5 (ix2 k j) = Wc k j) (h7 : ∀ k j, x7 (ix2 k j) = Wd k j) (h9 : ∀ k j, x9 (ix2 k j) = Wk k j)
    (h11 : ∀ k j, x11 (ix2 k j) = Wl k j) :
    out0_13 x0 x1 x2 x3 x4 x5 x6 x7 x8 x9 x10 x11 x12 (ix2 p cc)
      = cat (rfl : 3 = 2 + 1)
          (head (trunk xr W1 (fun j => x2 (ix2 (0 : Fin 1) j)) W2 (fun j => x4 (ix2 (0 : Fin 1) j))) Wc (fun j => x6 (ix2 (0 : Fin 1) j)) Wd
            (fun j => x8 (ix2 (0 : Fin 1) j)))
          (head (trunk xr W1 (fun j => x2 (ix2 (0 : Fin 1) j)) W2 (fun j => x4 (ix2 (0 : Fin 1) j))) Wk (fun j => x10 (ix2 (0 : Fin 1) j)) Wl
            (fun j => x12 (ix2 (0 : Fin 1) j))) cc := by
  have hg := hidden_at x0 x1 x2 x3 x4 p xr W1 W2 h0 h1 h3
  unfold out0_13
  rw [View.canon_unit_zero hz]
  simp only [View.ld_unit_zero (S := S1024x512) hz, View.ld_unit_zero (S := S512x1024) hz, View.ld_unit_zero (S := S1x1024) hz, View.ld_unit_zero (S := S1024x1024) hz, View.ld_unit_zero (S := S1024x2) hz, View.ld_unit_zero (S := S1x2) hz, View.ld_unit_zero (S := S1024x1) hz, View.ld_unit_zero (S := S1x1) hz]
  unfold k0_pay1
  try dsimp only
  refine (concat_cols_apply (rfl : 3 = 2 + 1) _ _ _ p cc).trans ?_
  congr 1
  · funext c2
    exact pair_at x0 x1 x2 x3 x4 x5 x6 x7 x8 p _ hg Wc Wd h5 h7 c2
  · funext c1
    refine klogistic_at _ _ _ ?_
    exact klayer_row dot_S1024x1024_S1024x1_S1024x1_1_0_0_1_n_n rfl rfl (by plain_lhs dot_S1024x1024_S1024x1_S1024x1_1_0_0_1_n_n 1024) (by plain_rhs dot_S1024x1024_S1024x1_S1024x1_1_0_0_1_n_n 1024) _ _ p _
      (fun k' => klayer_relu_row dot_S1024x1024_S1024x1024_S1024x1024_1_0_0_1_n_n rfl rfl (by plain_lhs dot_S1024x1024_S1024x1024_S1024x1024_1_0_0_1_n_n 1024) (by plain_rhs dot_S1024x1024_S1024x1024_S1024x1024_1_0_0_1_n_n 1024) (k0_pay2 x0 x1 x2 x3 x4) _ p _ hg
        Wk (fun a b => (self_cast x9 _ a b).trans (h9 a b)) x10 _ _ k')
      Wl (fun a b => (self_cast x11 _ a b).trans (h11 a b)) x12 _ _ c1

/-- The same with each bias's one row named. -/
theorem block_at' (p : Fin 1024) (cc : Fin 3) (xr : Fin 512 → EReal) (W1 : Fin 512 → Fin 1024 → EReal) (W2 : Fin 1024 → Fin 1024 → EReal)
    (Wc : Fin 1024 → Fin 1024 → EReal) (Wd : Fin 1024 → Fin 2 → EReal) (Wk : Fin 1024 → Fin 1024 → EReal) (Wl : Fin 1024 → Fin 1 → EReal)
    (b1 b2 bc : Fin 1024 → EReal) (bd : Fin 2 → EReal) (bk : Fin 1024 → EReal) (bl : Fin 1 → EReal)
    (h0 : ∀ k, x0 (ix2 p k) = xr k) (h1 : ∀ k j, x1 (ix2 k j) = W1 k j) (h3 : ∀ k j, x3 (ix2 k j) = W2 k j)
    (h5 : ∀ k j, x5 (ix2 k j) = Wc k j) (h7 : ∀ k j, x7 (ix2 k j) = Wd k j) (h9 : ∀ k j, x9 (ix2 k j) = Wk k j)
    (h11 : ∀ k j, x11 (ix2 k j) = Wl k j)
    (h2 : ∀ j, x2 (ix2 (0 : Fin 1) j) = b1 j) (h4 : ∀ j, x4 (ix2 (0 : Fin 1) j) = b2 j) (h6 : ∀ j, x6 (ix2 (0 : Fin 1) j) = bc j)
    (h8 : ∀ j, x8 (ix2 (0 : Fin 1) j) = bd j) (h10 : ∀ j, x10 (ix2 (0 : Fin 1) j) = bk j) (h12 : ∀ j, x12 (ix2 (0 : Fin 1) j) = bl j) :
    out0_13 x0 x1 x2 x3 x4 x5 x6 x7 x8 x9 x10 x11 x12 (ix2 p cc)
      = cat (rfl : 3 = 2 + 1) (head (trunk xr W1 b1 W2 b2) Wc bc Wd bd) (head (trunk xr W1 b1 W2 b2) Wk bk Wl bl) cc := by
  obtain rfl : b1 = fun j => x2 (ix2 (0 : Fin 1) j) := funext fun j => (h2 j).symm
  obtain rfl : b2 = fun j => x4 (ix2 (0 : Fin 1) j) := funext fun j => (h4 j).symm
  obtain rfl : bc = fun j => x6 (ix2 (0 : Fin 1) j) := funext fun j => (h6 j).symm
  obtain rfl : bd = fun j => x8 (ix2 (0 : Fin 1) j) := funext fun j => (h8 j).symm
  obtain rfl : bk = fun j => x10 (ix2 (0 : Fin 1) j) := funext fun j => (h10 j).symm
  obtain rfl : bl = fun j => x12 (ix2 (0 : Fin 1) j) := funext fun j => (h12 j).symm
  exact block_at x0 x1 x2 x3 x4 x5 x6 x7 x8 x9 x10 x11 x12 p cc xr W1 W2 Wc Wd Wk Wl h0 h1 h3 h5 h7 h9 h11

end Cert.KernelIdeal.Body

end
-- ==== Proof.KernelValue.lean ====
/-
  THE PACKED ARRAY THE REGION LEAVES, AND THE THREE RESULTS CUT OUT OF IT.

  The grid has 16 points; point `t` holds rows `1024·t … 1024·t + 1023` of the observations and every parameter whole, and
  writes back rows `1024·t …` of a `[16384, 3]` array.  So row `P` of that array is the packed row (two fused heads and the
  third head) of the trunk's hidden row of observation row `P`: the array is one function `G` of the arguments, because each
  of its rows depends on the same row of the observations only and the blocks tile it.  After the region each result is
  one column of `G` repeated across nine columns; column by column the packed row is the corresponding head's number
  (for the third head, given that the trunk's inputs are real numbers).
-/
import proofs.«118333_j57260503990878_2_alg».proof.Proof.Gen.KernelIdeal.Frame
import proofs.«118333_j57260503990878_2_alg».proof.Proof.KernelHostA
import proofs.«118333_j57260503990878_2_alg».proof.Proof.KernelHostB
import proofs.«118333_j57260503990878_2_alg».proof.Proof.KernelBody
import Idealize.ShloMosaic.Lib.Pipeline.Value
import Idealize.ShloMosaic.Lib.StableHlo.Run

set_option maxRecDepth 16384

noncomputable section

namespace Cert.KernelIdeal.Packed

open Cert.KernelIdeal Cert.KernelIdeal.Gen Idealize.ShloMosaic Idealize.ShloMosaic.TcCoe Idealize.SL.Sem Idealize.ShloMosaic.StableHlo
open Idealize.ShloMosaic.ValueIdx Cert.DenseRow Cert.RowBias Cert.DenseStep Cert.Join Cert.Heads Cert.RealEntries
open Idealize.ShloMosaic.Pipeline (Dat Cfg Window)

variable (m : (ℓ : Loc nD τ sig) → Buf (Elt Ideal) ℓ) (ρ : Dev nD → PrngReg) (c : Dev nD)

/-! ## The blocks the body is called with -/

theorem idx0 : ∀ t : Fin cfg0.N, win0_0.index t (0 : Fin 2) = t.val ∧ win0_0.index t (1 : Fin 2) = 0 :=
  (by decide +kernel : ∀ t : Fin grid0.N, _)

theorem idx13 : ∀ t : Fin cfg0.N, win0_13.index t (0 : Fin 2) = t.val ∧ win0_13.index t (1 : Fin 2) = 0 :=
  (by decide +kernel : ∀ t : Fin grid0.N, _)

theorem t_lt (t : Fin cfg0.N) : t.val < 16 := lt_of_lt_of_eq t.isLt N_0

/-- Row `p` of the observations block at point `t` is row `1024·t + p` of the observations. -/
theorem blk0 (t : Fin cfg0.N) (p : Fin 1024) (k : Fin 512) :
    iblk (F := Ideal) m c 0 t (ix2 p k)
      = (m ((c : Thread nD τ).loc main_arg0)) (ix2 (⟨t.val * 1024 + p.val, by have := t_lt t; have := p.isLt; omega⟩ : Fin 16384) k) := by
  obtain ⟨f0, f1⟩ := idx0 t
  show (V (F := Ideal) m c main_v22 : S16384x512.Idx → EReal) (((cfg0.win 0).blk t).view.emb (ix2 p k)) = _
  have h0 : ((cfg0.win 0).blk t).view.emb (ix2 p k)
      = ix2 (⟨t.val * 1024 + p.val, by have := t_lt t; have := p.isLt; omega⟩ : Fin 16384) k := by
    funext a; apply Fin.ext
    match a with
    | ⟨0, _⟩ => show win0_0.index t (0 : Fin 2) * 1024 + 1 * p.val = t.val * 1024 + p.val; omega
    | ⟨1, _⟩ => show win0_0.index t (1 : Fin 2) * 512 + 1 * k.val = k.val; omega
  rw [h0]
  exact HostA.obs_at m c _ k

theorem idx1 : ∀ t : Fin cfg0.N, win0_1.index t (0 : Fin 2) = 0 ∧ win0_1.index t (1 : Fin 2) = 0 :=
  (by decide +kernel : ∀ t : Fin grid0.N, _)

theorem blk1 (t : Fin cfg0.N) (k : Fin 512) (j : Fin 1024) : iblk (F := Ideal) m c 1 t (ix2 k j) = (m ((c : Thread nD τ).loc main_arg2)) (ix2 k j) := by
  obtain ⟨f0, f1⟩ := idx1 t
  show (V (F := Ideal) m c main_v15 : S512x1024.Idx → EReal) (((cfg0.win 1).blk t).view.emb (ix2 k j)) = _
  have h0 : ((cfg0.win 1).blk t).view.emb (ix2 k j) = ix2 k j := by
    funext a; apply Fin.ext
    match a with
    | ⟨0, _⟩ => show win0_1.index t (0 : Fin 2) * 512 + 1 * k.val = k.val; omega
    | ⟨1, _⟩ => show win0_1.index t (1 : Fin 2) * 1024 + 1 * j.val = j.val; omega
  rw [h0]
  exact HostA.w1_at m c k j

theorem idx2 : ∀ t : Fin cfg0.N, win0_2.index t (0 : Fin 2) = 0 ∧ win0_2.index t (1 : Fin 2) = 0 :=
  (by decide +kernel : ∀ t : Fin grid0.N, _)

theorem blk2 (t : Fin cfg0.N) (j : Fin 1024) : iblk (F := Ideal) m c 2 t (ix2 (0 : Fin 1) j) = (m ((c : Thread nD τ).loc main_arg3)) (ix1 j) := by
  obtain ⟨f0, f1⟩ := idx2 t
  show (V (F := Ideal) m c main_v18 : S1x1024.Idx → EReal) (((cfg0.win 2).blk t).view.emb (ix2 (0 : Fin 1) j)) = _
  have h0 : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 1024 + 1 * j.val = j.val; omega
  rw [h0]
  exact HostA.b1_at m c j

theorem idx3 : ∀ t : Fin cfg0.N, win0_3.index t (0 : Fin 2) = 0 ∧ win0_3.index t (1 : Fin 2) = 0 :=
  (by decide +kernel : ∀ t : Fin grid0.N, _)

theorem blk3 (t : Fin cfg0.N) (k : Fin 1024) (j : Fin 1024) : iblk (F := Ideal) m c 3 t (ix2 k j) = (m ((c : Thread nD τ).loc main_arg4)) (ix2 k j) := by
  obtain ⟨f0, f1⟩ := idx3 t
  show (V (F := Ideal) m c main_v16 : S1024x1024.Idx → EReal) (((cfg0.win 3).blk t).view.emb (ix2 k j)) = _
  have h0 : ((cfg0.win 3).blk t).view.emb (ix2 k j) = ix2 k j := by
    funext a; apply Fin.ext
    match a with
    | ⟨0, _⟩ => show win0_3.index t (0 : Fin 2) * 1024 + 1 * k.val = k.val; omega
    | ⟨1, _⟩ => show win0_3.index t (1 : Fin 2) * 1024 + 1 * j.val = j.val; omega
  rw [h0]
  exact HostA.w2_at m c k j

theorem idx4 : ∀ t : Fin cfg0.N, win0_4.index t (0 : Fin 2) = 0 ∧ win0_4.index t (1 : Fin 2) = 0 :=
  (by decide +kernel : ∀ t : Fin grid0.N, _)

theorem blk4 (t : Fin cfg0.N) (j : Fin 1024) : iblk (F := Ideal) m c 4 t (ix2 (0 : Fin 1) j) = (m ((c : Thread nD τ).loc main_arg5)) (ix1 j) := by
  obtain ⟨f0, f1⟩ := idx4 t
  show (V (F := Ideal) m c main_v19 : S1x1024.Idx → EReal) (((cfg0.win 4).blk t).view.emb (ix2 (0 : Fin 1) j)) = _
  have h0 : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 1024 + 1 * j.val = j.val; omega
  rw [h0]
  exact HostA.b2_at m c j

theorem idx5 : ∀ t : Fin cfg0.N, win0_5.index t (0 : Fin 2) = 0 ∧ win0_5.index t (1 : Fin 2) = 0 :=
  (by decide +kernel : ∀ t : Fin grid0.N, _)

theorem blk5 (t : Fin cfg0.N) (k : Fin 1024) (j : Fin 1024) : iblk (F := Ideal) m c 5 t (ix2 k j) = cat (rfl : 1024 = 512 + 512) (mat (m ((c : Thread nD τ).loc main_arg6)) k) (mat (m ((c : Thread nD τ).loc main_arg10)) k) j := by
  obtain ⟨f0, f1⟩ := idx5 t
  show (V (F := Ideal) m c main_v5 : S1024x1024.Idx → EReal) (((cfg0.win 5).blk t).view.emb (ix2 k j)) = _
  have h0 : ((cfg0.win 5).blk t).view.emb (ix2 k j) = ix2 k j := by
    funext a; apply Fin.ext
    match a with
    | ⟨0, _⟩ => show win0_5.index t (0 : Fin 2) * 1024 + 1 * k.val = k.val; omega
    | ⟨1, _⟩ => show win0_5.index t (1 : Fin 2) * 1024 + 1 * j.val = j.val; omega
  rw [h0]
  exact HostA.wct1_at m c k j

theorem idx6 : ∀ t : Fin cfg0.N, win0_6.index t (0 : Fin 2) = 0 ∧ win0_6.index t (1 : Fin 2) = 0 :=
  (by decide +kernel : ∀ t : Fin grid0.N, _)

theorem blk6 (t : Fin cfg0.N) (j : Fin 1024) : iblk (F := Ideal) m c 6 t (ix2 (0 : Fin 1) j) = cat (rfl : 1024 = 512 + 512) (vec (m ((c : Thread nD τ).loc main_arg7))) (vec (m ((c : Thread nD τ).loc main_arg11))) j := by
  obtain ⟨f0, f1⟩ := idx6 t
  show (V (F := Ideal) m c main_v7 : S1x1024.Idx → EReal) (((cfg0.win 6).blk t).view.emb (ix2 (0 : Fin 1) j)) = _
  have h0 : ((cfg0.win 6).blk t).view.emb (ix2 (0 : Fin 1) j) = ix2 (0 : Fin 1) j := by
    funext a; apply Fin.ext
    match a with
    | ⟨0, _⟩ => show win0_6.index t (0 : Fin 2) * 1 + 1 * 0 = 0; omega
    | ⟨1, _⟩ => show win0_6.index t (1 : Fin 2) * 1024 + 1 * j.val = j.val; omega
  rw [h0]
  exact HostA.bct1_at m c j

theorem idx7 : ∀ t : Fin cfg0.N, win0_7.index t (0 : Fin 2) = 0 ∧ win0_7.index t (1 : Fin 2) = 0 :=
  (by decide +kernel : ∀ t : Fin grid0.N, _)

theorem blk7 (t : Fin cfg0.N) (k : Fin 1024) (j : Fin 2) : iblk (F := Ideal) m c 7 t (ix2 k j) = blockDiag (rfl : 1024 = 512 + 512) (fun a => (m ((c : Thread nD τ).loc main_arg8)) (ix2 a (0 : Fin 1))) (fun b => (m ((c : Thread nD τ).loc main_arg12)) (ix2 b (0 : Fin 1))) k j := by
  obtain ⟨f0, f1⟩ := idx7 t
  show (V (F := Ideal) m c main_v12 : S1024x2.Idx → EReal) (((cfg0.win 7).blk t).view.emb (ix2 k j)) = _
  have h0 : ((cfg0.win 7).blk t).view.emb (ix2 k j) = ix2 k j := by
    funext a; apply Fin.ext
    match a with
    | ⟨0, _⟩ => show win0_7.index t (0 : Fin 2) * 1024 + 1 * k.val = k.val; omega
    | ⟨1, _⟩ => show win0_7.index t (1 : Fin 2) * 2 + 1 * j.val = j.val; omega
  rw [h0]
  exact HostB.wct2_at m c k j

theorem idx8 : ∀ t : Fin cfg0.N, win0_8.index t (0 : Fin 2) = 0 ∧ win0_8.index t (1 : Fin 2) = 0 :=
  (by decide +kernel : ∀ t : Fin grid0.N, _)

theorem blk8 (t : Fin cfg0.N) (j : Fin 2) : iblk (F := Ideal) m c 8 t (ix2 (0 : Fin 1) j) = cat (rfl : 2 = 1 + 1) (vec (m ((c : Thread nD τ).loc main_arg9))) (vec (m ((c : Thread nD τ).loc main_arg13))) j := by
  obtain ⟨f0, f1⟩ := idx8 t
  show (V (F := Ideal) m c main_v14 : S1x2.Idx → EReal) (((cfg0.win 8).blk t).view.emb (ix2 (0 : Fin 1) j)) = _
  have h0 : ((cfg0.win 8).blk t).view.emb (ix2 (0 : Fin 1) j) = ix2 (0 : Fin 1) j := by
    funext a; apply Fin.ext
    match a with
    | ⟨0, _⟩ => show win0_8.index t (0 : Fin 2) * 1 + 1 * 0 = 0; omega
    | ⟨1, _⟩ => show win0_8.index t (1 : Fin 2) * 2 + 1 * j.val = j.val; omega
  rw [h0]
  exact HostB.bct2_at m c j

theorem idx9 : ∀ t : Fin cfg0.N, win0_9.index t (0 : Fin 2) = 0 ∧ win0_9.index t (1 : Fin 2) = 0 :=
  (by decide +kernel : ∀ t : Fin grid0.N, _)

theorem blk9 (t : Fin cfg0.N) (k : Fin 1024) (j : Fin 1024) : iblk (F := Ideal) m c 9 t (ix2 k j) = halvesSum (m ((c : Thread nD τ).loc main_arg14)) k j := by
  obtain ⟨f0, f1⟩ := idx9 t
  show (V (F := Ideal) m c main_v3 : S1024x1024.Idx → EReal) (((cfg0.win 9).blk t).view.emb (ix2 k j)) = _
  have h0 : ((cfg0.win 9).blk t).view.emb (ix2 k j) = ix2 k j := by
    funext a; apply Fin.ext
    match a with
    | ⟨0, _⟩ => show win0_9.index t (0 : Fin 2) * 1024 + 1 * k.val = k.val; omega
    | ⟨1, _⟩ => show win0_9.index t (1 : Fin 2) * 1024 + 1 * j.val = j.val; omega
  rw [h0]
  exact HostB.wk1_at m c k j

theorem idx10 : ∀ t : Fin cfg0.N, win0_10.index t (0 : Fin 2) = 0 ∧ win0_10.index t (1 : Fin 2) = 0 :=
  (by decide +kernel : ∀ t : Fin grid0.N, _)

theorem blk10 (t : Fin cfg0.N) (j : Fin 1024) : iblk (F := Ideal) m c 10 t (ix2 (0 : Fin 1) j) = (m ((c : Thread nD τ).loc main_arg15)) (ix1 j) := by
  obtain ⟨f0, f1⟩ := idx10 t
  show (V (F := Ideal) m c main_v20 : S1x1024.Idx → EReal) (((cfg0.win 10).blk t).view.emb (ix2 (0 : Fin 1) j)) = _
  have h0 : ((cfg0.win 10).blk t).view.emb (ix2 (0 : Fin 1) j) = ix2 (0 : Fin 1) j := by
    funext a; apply Fin.ext
    match a with
    | ⟨0, _⟩ => show win0_10.index t (0 : Fin 2) * 1 + 1 * 0 = 0; omega
    | ⟨1, _⟩ => show win0_10.index t (1 : Fin 2) * 1024 + 1 * j.val = j.val; omega
  rw [h0]
  exact HostB.bk1_at m c j

theorem idx11 : ∀ t : Fin cfg0.N, win0_11.index t (0 : Fin 2) = 0 ∧ win0_11.index t (1 : Fin 2) = 0 :=
  (by decide +kernel : ∀ t : Fin grid0.N, _)

theorem blk11 (t : Fin cfg0.N) (k : Fin 1024) (j : Fin 1) : iblk (F := Ideal) m c 11 t (ix2 k j) = (m ((c : Thread nD τ).loc main_arg16)) (ix2 k j) := by
  obtain ⟨f0, f1⟩ := idx11 t
  show (V (F := Ideal) m c main_v17 : S1024x1.Idx → EReal) (((cfg0.win 11).blk t).view.emb (ix2 k j)) = _
  have h0 : ((cfg0.win 11).blk t).view.emb (ix2 k j) = ix2 k j := by
    funext a; apply Fin.ext
    match a with
    | ⟨0, _⟩ => show win0_11.index t (0 : Fin 2) * 1024 + 1 * k.val = k.val; omega
    | ⟨1, _⟩ => show win0_11.index t (1 : Fin 2) * 1 + 1 * j.val = j.val; omega
  rw [h0]
  exact HostB.wk2_at m c k j

theorem idx12 : ∀ t : Fin cfg0.N, win0_12.index t (0 : Fin 2) = 0 ∧ win0_12.index t (1 : Fin 2) = 0 :=
  (by decide +kernel : ∀ t : Fin grid0.N, _)

theorem blk12 (t : Fin cfg0.N) (j : Fin 1) : iblk (F := Ideal) m c 12 t (ix2 (0 : Fin 1) j) = (m ((c : Thread nD τ).loc main_arg17)) (ix1 j) := by
  obtain ⟨f0, f1⟩ := idx12 t
  show (V (F := Ideal) m c main_v21 : S1x1.Idx → EReal) (((cfg0.win 12).blk t).view.emb (ix2 (0 : Fin 1) j)) = _
  have h0 : ((cfg0.win 12).blk t).view.emb (ix2 (0 : Fin 1) j) = ix2 (0 : Fin 1) j := by
    funext a; apply Fin.ext
    match a with
    | ⟨0, _⟩ => show win0_12.index t (0 : Fin 2) * 1 + 1 * 0 = 0; omega
    | ⟨1, _⟩ => show win0_12.index t (1 : Fin 2) * 1 + 1 * j.val = j.val; omega
  rw [h0]
  exact HostB.bk2_at m c j

/-! ## The packed array -/

/-- Row `P` of the packed array: the packed row of the hidden row of observation row `P`. -/
def G : S16384x3.Idx → EReal := fun i =>
  packedRow (hiddenRow (m ((c : Thread nD τ).loc main_arg0)) (m ((c : Thread nD τ).loc main_arg2)) (m ((c : Thread nD τ).loc main_arg3)) (m ((c : Thread nD τ).loc main_arg4)) (m ((c : Thread nD τ).loc main_arg5)) (idxEquiv2 (n0 := 16384) (n1 := 3) i).1)
    (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (idxEquiv2 (n0 := 16384) (n1 := 3) i).2

/-- What point `t` writes back is block `t` of `G`. -/
theorem flushed_eq (t : Fin cfg0.N) :
    (dats m 0 c).flushed 13 t = ((cfg0.win 13).blk t).view.read (Elt Ideal) (G m c) := by
  show (cfg0.win 13).cut (grid0.coords t) ((dats m 0 c).after 13 t) = _
  rw [after0_13]
  obtain ⟨f0, f1⟩ := idx13 t
  funext (j : S1024x3.Idx)
  obtain ⟨p, cc, rfl⟩ : ∃ (p : Fin 1024) (cc : Fin 3), j = ix2 p cc := ⟨j 0, j 1, eq_ix2 j⟩
  show out0_13 (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 p cc)
    = G m c (((cfg0.win 13).blk t).view.emb (ix2 p cc))
  have h0 : ((cfg0.win 13).blk t).view.emb (ix2 p cc)
      = ix2 (⟨t.val * 1024 + p.val, by have := t_lt t; have := p.isLt; omega⟩ : Fin 16384) cc := by
    funext a; apply Fin.ext
    match a with
    | ⟨0, _⟩ => show win0_13.index t (0 : Fin 2) * 1024 + 1 * p.val = t.val * 1024 + p.val; omega
    | ⟨1, _⟩ => show win0_13.index t (1 : Fin 2) * 3 + 1 * cc.val = cc.val; omega
  rw [h0]
  exact Body.block_at' (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) (iblk m c 12 t) p cc _ _ _ _ _ _ _ _ _ _ _ _ _
    (blk0 m c t p) (blk1 m c t) (blk3 m c t) (blk5 m c t) (blk7 m c t) (blk9 m c t) (blk11 m c t)
    (blk2 m c t) (blk4 m c t) (blk6 m c t) (blk8 m c t) (blk10 m c t) (blk12 m c t)

/-- An index of the array is in point `t`'s block iff each coordinate is in the block's range on its axis. -/
theorem mem_blk (t : Fin cfg0.N) (i : S16384x3.Idx) :
    i ∈ ((cfg0.win 13).blk t).view.set ↔ ∀ a : Fin 2, win0_13.index t a * S1024x3.size a ≤ (i a).val ∧ (i a).val < win0_13.index t a * S1024x3.size a + S1024x3.size a := by
  show i ∈ ((View.whole main_v23).slice (win0_13.rect t)).set ↔ _
  rw [View.set_slice_whole, Rect.mem_set_unit]
  exact Iff.rfl

/-- Every row is in the block of the point `row / 1024`. -/
theorem cover (i : S16384x3.Idx) : ∃ t : Fin cfg0.N, (cfg0.win 13).flush t = true ∧ i ∈ ((cfg0.win 13).blk t).view.set := by
  have hi0 : (i 0).val < 16384 := (i 0).isLt
  have hi1 : (i 1).val < 3 := (i 1).isLt
  let t : Fin cfg0.N := ⟨(i 0).val / 1024, lt_of_lt_of_eq (by omega : (i 0).val / 1024 < 16) N_0.symm⟩
  obtain ⟨f0, f1⟩ := idx13 t
  have ht : t.val = (i 0).val / 1024 := rfl
  refine ⟨t, flush0_13 t, ?_⟩
  rw [mem_blk]
  intro a
  match a with
  | ⟨0, _⟩ => show win0_13.index t (0 : Fin 2) * 1024 ≤ (i 0).val ∧ (i 0).val < win0_13.index t (0 : Fin 2) * 1024 + 1024; omega
  | ⟨1, _⟩ => show win0_13.index t (1 : Fin 2) * 3 ≤ (i 1).val ∧ (i 1).val < win0_13.index t (1 : Fin 2) * 3 + 3; omega

/-- The array after the region is `G`. -/
theorem final : (dats m 0 c).arrAt 13 cfg0.N = G m c :=
  (dats m 0 c).arrAt_eq_of_cover 13 (G m c) (fun t _ => flushed_eq m c t) (cover)

/-! ## The three results -/

theorem region_array :
    Pipeline.withArrays spec0 c (V0 m c) (fun w => (dats m 0 c).arrAt w cfg0.N) (Proc.devRef .tc main_v23) = G m c :=
  (Pipeline.withArrays_arr spec0 launch0.win.arr_inj c (V0 m c) (fun w => (dats m 0 c).arrAt w cfg0.N) 13).trans (final m c)

theorem G_at (p : Fin 16384) (cc : Fin 3) :
    G m c (ix2 p cc) = packedRow (hiddenRow (m ((c : Thread nD τ).loc main_arg0)) (m ((c : Thread nD τ).loc main_arg2)) (m ((c : Thread nD τ).loc main_arg3)) (m ((c : Thread nD τ).loc main_arg4)) (m ((c : Thread nD τ).loc main_arg5)) p) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) cc := rfl

theorem tail0 : Pipeline.afterTail₀ cfgs (dats m) 0 (V0 m) [hostOps1] c main_v27
    = outHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  have hW := region_array m c
  unfold Pipeline.afterTail₀
  show StableHlo.after hostOps1 _ (Proc.devRef .tc main_v27) = _
  after_results
  funext i
  obtain ⟨p, n, rfl⟩ : ∃ (p : Fin 16384) (n : Fin 9), i = ix2 p n := ⟨i 0, i 1, eq_ix2 i⟩
  refine (hbcast_col _ _ p n).trans ?_
  refine (slice_col_apply 0 _ _ p 0 (0 : Fin 3) rfl).trans ?_
  refine (congrFun hW (ix2 p (0 : Fin 3))).trans ?_
  exact (G_at m c p 0).trans (packed_col0 _ _ _ _ _ _ _ _ _ _ _ _ _)

theorem tail1 : Pipeline.afterTail₀ cfgs (dats m) 0 (V0 m) [hostOps1] c main_v28
    = outHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13)) := by
  have hW := region_array m c
  unfold Pipeline.afterTail₀
  show StableHlo.after hostOps1 _ (Proc.devRef .tc main_v28) = _
  after_results
  funext i
  obtain ⟨p, n, rfl⟩ : ∃ (p : Fin 16384) (n : Fin 9), i = ix2 p n := ⟨i 0, i 1, eq_ix2 i⟩
  refine (hbcast_col _ _ p n).trans ?_
  refine (slice_col_apply 1 _ _ p 0 (1 : Fin 3) rfl).trans ?_
  refine (congrFun hW (ix2 p (1 : Fin 3))).trans ?_
  exact (G_at m c p 1).trans (packed_col1 _ _ _ _ _ _ _ _ _ _ _ _ _)

theorem tail2 (h0 : ∀ i, IsR ((m ((c : Thread nD τ).loc main_arg0)) i)) (h2 : ∀ i, IsR ((m ((c : Thread nD τ).loc main_arg2)) i)) (h3 : ∀ i, IsR ((m ((c : Thread nD τ).loc main_arg3)) i)) (h4 : ∀ i, IsR ((m ((c : Thread nD τ).loc main_arg4)) i))
    (h5 : ∀ i, IsR ((m ((c : Thread nD τ).loc main_arg5)) i)) :
    Pipeline.afterTail₀ cfgs (dats m) 0 (V0 m) [hostOps1] c main_v29
    = outTwice (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17)) := by
  have hW := region_array m c
  unfold Pipeline.afterTail₀
  show StableHlo.after hostOps1 _ (Proc.devRef .tc main_v29) = _
  after_results
  funext i
  obtain ⟨p, n, rfl⟩ : ∃ (p : Fin 16384) (n : Fin 9), i = ix2 p n := ⟨i 0, i 1, eq_ix2 i⟩
  refine (hbcast_col _ _ p n).trans ?_
  refine (slice_col_apply 2 _ _ p 0 (2 : Fin 3) rfl).trans ?_
  refine (congrFun hW (ix2 p (2 : Fin 3))).trans ?_
  refine (G_at m c p 2).trans (packed_col2 _ _ _ _ _ _ _ _ _ _ _ _ _ (fun k => act_nonneg _ k) (fun k => IsR.ne_top ?_))
  exact isR_trunk _ _ _ _ _ (fun k' => h0 _) (fun a b => h2 _) (fun j => h3 _) (fun a b => h4 _) (fun j => h5 _) k

end Cert.KernelIdeal.Packed

end
-- ==== Proof.LibFiniteEntry.lean ====
/-
  FROM "EVERY ENTRY IS BELOW INFINITY IN ABSOLUTE VALUE" TO "EVERY ENTRY IS A REAL NUMBER", at the ideal values.

  A precondition that an array is finite is printed as: the absolute value of the array, compared entry by entry (ordered,
  less than) with the single-precision word of `+∞` broadcast from a scalar.  At the ideal values the absolute value of
  `x` is `max x (-x)`, the word `0x7F800000` is `⊤`, and an extended real whose absolute value is below `⊤` is neither `⊤`
  nor `⊥`: it is a real number.  No program appears in this module.
-/
import Idealize.ShloMosaic.PureOps.Ideal.Laws
import Idealize.ShloMosaic.Lib.ValueIdx
import Idealize.ShloMosaic.Lib.Pipeline.Value
import proofs.«118333_j57260503990878_2_alg».proof.Proof.LibRealEntries

noncomputable section

namespace Cert.FiniteEntry

open Idealize.ShloMosaic Idealize.ShloMosaic.ValueIdx Cert.RealEntries

/-- The single-precision pattern `0x7F800000` (sign 0, exponent all ones, fraction 0) denotes `+∞`. -/
theorem inf_word : Ideal.ofBits .f32 0x7F800000#32 = (⊤ : EReal) := by simp [Ideal.ofBits, Ideal.ieee]

/-- An extended real whose absolute value is below `⊤` is a real number. -/
theorem isR_of_abs_lt_top (x : EReal) (h : max x (-x) < ⊤) : IsR x := by
  induction x using EReal.rec with
  | bot => simp at h
  | coe r => exact ⟨r, rfl⟩
  | top => simp at h

/-- The printed comparison at an index. -/
theorem isR_of_cmp {s : Shape} (x : FVec Ideal s .f32) (hb : (⟨0, ![]⟩ : Shape).BroadcastsInDim s ![]) (i : s.Idx)
    (h : cmpf .olt (Host.absf x) (broadcastInDim s ![] hb (constant (F := Ideal) ⟨0, ![]⟩ .f32 0x7F800000#32)) i = 1#1) :
    IsR (x i) := by
  have h' : FloatOps.cmpf (F := Ideal) (φ := .f32) .olt (max (x i) (-(x i)))
      (broadcastInDim s ![] hb (constant (F := Ideal) ⟨0, ![]⟩ .f32 0x7F800000#32) i) = 1#1 := h
  rw [broadcastInDim_apply _ hb _ i ix0 (fun a => a.elim0)] at h'
  have h2 : FloatOps.cmpf (F := Ideal) (φ := .f32) .olt (max (x i) (-(x i))) (Ideal.ofBits .f32 0x7F800000#32) = 1#1 := h'
  rw [inf_word] at h2
  by_cases hlt : max (x i) (-(x i)) < (⊤ : EReal)
  · exact isR_of_abs_lt_top _ hlt
  · exfalso
    have h3 : BitVec.ofBool (decide (max (x i) (-(x i)) < (⊤ : EReal))) = 1#1 := h2
    rw [decide_eq_false hlt] at h3
    exact absurd h3 (by decide)

end Cert.FiniteEntry

end
-- ==== Proof.Finite.lean ====
/-
  THE PRECONDITION, READ: the inputs the trunk depends on hold real numbers.

  The precondition is the conjunction, over the eighteen arguments, of "every entry is below `+∞` in absolute value".  A
  conjunction that is true has every conjunct true; a conjunct that is true says every entry of its array passes the
  comparison, and an entry that passes is a real number.  Only the observations and the trunk's four parameters are
  needed: the heads are fused with no distributivity that could fail at an infinite parameter.
-/
import proofs.«118333_j57260503990878_2_alg».proof.Pre_finite_inputs
import proofs.«118333_j57260503990878_2_alg».proof.Proof.LibFiniteEntry
import Idealize.ShloMosaic.Lib.ReduceAll
import Idealize.ShloMosaic.Lib.Affine

noncomputable section

namespace Cert.Pre_finite_inputs.Decode

open Cert.Pre_finite_inputs Idealize.ShloMosaic Idealize.ShloMosaic.ValueIdx Cert.RealEntries Cert.FiniteEntry

variable [Facts]

instance : Subsingleton S_.Idx := ⟨fun a b => funext fun d => d.elim0⟩

set_option maxHeartbeats 4000000 in
theorem real_inputs (a0 : FVec Ideal S16384x512 .f32) (a1 : FVec Ideal S16384x9x3 .f32) (a2 : FVec Ideal S512x1024 .f32) (a3 : FVec Ideal S1024 .f32) (a4 : FVec Ideal S1024x1024 .f32) (a5 : FVec Ideal S1024 .f32) (a6 : FVec Ideal S1024x512 .f32) (a7 : FVec Ideal S512 .f32) (a8 : FVec Ideal S512x1 .f32) (a9 : FVec Ideal S1 .f32) (a10 : FVec Ideal S1024x512 .f32) (a11 : FVec Ideal S512 .f32) (a12 : FVec Ideal S512x1 .f32) (a13 : FVec Ideal S1 .f32) (a14 : FVec Ideal S2048x1024 .f32) (a15 : FVec Ideal S1024 .f32) (a16 : FVec Ideal S1024x1 .f32) (a17 : FVec Ideal S1 .f32)
    (h : fn (F := Ideal) a0 a1 a2 a3 a4 a5 a6 a7 a8 a9 a10 a11 a12 a13 a14 a15 a16 a17 = fun _ => 1#1) :
    (∀ i, IsR (a0 i)) ∧ (∀ i, IsR (a2 i)) ∧ (∀ i, IsR (a3 i)) ∧ (∀ i, IsR (a4 i)) ∧ (∀ i, IsR (a5 i)) := by
  have e := congrFun h ix0
  unfold fn fn_part1 fn_part2 fn_part3 fn_part4 fn_part5 at e
  dsimp only [andi] at e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, -⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, -⟩ := IntOp.andi_eq_one.1 e
  exact ⟨fun i => isR_of_cmp a0 _ i (Host.reduce_andi_all _ _ _ _ _ e0 i),
    fun i => isR_of_cmp a2 _ i (Host.reduce_andi_all _ _ _ _ _ e2 i),
    fun i => isR_of_cmp a3 _ i (Host.reduce_andi_all _ _ _ _ _ e3 i),
    fun i => isR_of_cmp a4 _ i (Host.reduce_andi_all _ _ _ _ _ e4 i),
    fun i => isR_of_cmp a5 _ i (Host.reduce_andi_all _ _ _ _ _ e5 i)⟩

end Cert.Pre_finite_inputs.Decode

end
-- ==== Proof.lean ====
/-
  THE CERTIFICATE: a fused three-head network kernel against its plain reference, over the extended reals.

  Both programs send each of 16384 observation rows through a trunk of two rectified dense layers to a hidden row `g` and
  then through three heads (rectified dense layer, dense layer to one number, sigmoid), and repeat each head's number
  across nine columns.  The reference computes the coverage and tracking heads separately and feeds the cooperation head
  `g` written twice side by side against a weight with `1024 + 1024` rows.  The kernel works on blocks of 1024 rows; it
  computes the first two heads as one hidden layer of `512 + 512` units and one final layer with a block-diagonal weight
  (the off-diagonal blocks are zeros, and a product with zero is zero on the extended reals whatever the other factor), and
  the third head against the sum of the weight's two halves: `g·u + g·l = g·(u + l)`, which on the extended reals needs
  `g` non-negative (it is rectified) and finite (it is, because the precondition makes the observations and the trunk's
  parameters real numbers).  Number-format changes are the identity at the ideal values, a matrix product into a zero
  accumulator is the host's contraction, and the kernel's sigmoid is the reference's quotient `1 / (1 + e^(-v))`.
  The three frames are the generated ones (the reference's is its generated run with the results dropped); the
  idealization ledger is empty.
-/
import proofs.«118333_j57260503990878_2_alg».proof.Defs
import proofs.«118333_j57260503990878_2_alg».proof.Proof.Gen.Kernel
import proofs.«118333_j57260503990878_2_alg».proof.Proof.Gen.Kernel.Frame
import proofs.«118333_j57260503990878_2_alg».proof.Proof.Gen.KernelIdeal
import proofs.«118333_j57260503990878_2_alg».proof.Proof.Gen.KernelIdeal.Frame
import proofs.«118333_j57260503990878_2_alg».proof.Proof.Gen.ReferenceIdeal
import proofs.«118333_j57260503990878_2_alg».proof.Proof.Gen.Pre_finite_inputs
import proofs.«118333_j57260503990878_2_alg».proof.Proof.Gen.ReferenceIdeal.Run
import proofs.«118333_j57260503990878_2_alg».proof.Proof.Gen.ReferenceIdeal.Read
import proofs.«118333_j57260503990878_2_alg».proof.Proof.RefRead
import proofs.«118333_j57260503990878_2_alg».proof.Proof.KernelValue
import proofs.«118333_j57260503990878_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx Cert.Heads

/-! ## The reference's results as the heads' numbers -/

section Ref

open Cert.ReferenceIdeal Cert.ReferenceIdeal.Read Cert.ReferenceIdeal.RefValue

theorem ref0 (x0 : FVec Ideal S16384x512 .f32) (x2 : FVec Ideal S512x1024 .f32) (x3 : FVec Ideal S1024 .f32)
    (x4 : FVec Ideal S1024x1024 .f32) (x5 : FVec Ideal S1024 .f32) (x6 : FVec Ideal S1024x512 .f32) (x7 : FVec Ideal S512 .f32)
    (x8 : FVec Ideal S512x1 .f32) (x9 : FVec Ideal S1 .f32) :
    val_main_v56 (F := Ideal) x0 x2 x3 x4 x5 x6 x7 x8 x9 = outHead x0 x2 x3 x4 x5 x6 x7 x8 x9 := by
  funext i
  obtain ⟨p, n, rfl⟩ : ∃ (p : Fin 16384) (n : Fin 9), i = ix2 p n := ⟨i 0, i 1, eq_ix2 i⟩
  exact ref_out0 x0 x2 x3 x4 x5 x6 x7 x8 x9 p n

theorem ref1 (x0 : FVec Ideal S16384x512 .f32) (x2 : FVec Ideal S512x1024 .f32) (x3 : FVec Ideal S1024 .f32)
    (x4 : FVec Ideal S1024x1024 .f32) (x5 : FVec Ideal S1024 .f32) (x10 : FVec Ideal S1024x512 .f32) (x11 : FVec Ideal S512 .f32)
    (x12 : FVec Ideal S512x1 .f32) (x13 : FVec Ideal S1 .f32) :
    val_main_v57 (F := Ideal) x0 x2 x3 x4 x5 x10 x11 x12 x13 = outHead x0 x2 x3 x4 x5 x10 x11 x12 x13 := by
  funext i
  obtain ⟨p, n, rfl⟩ : ∃ (p : Fin 16384) (n : Fin 9), i = ix2 p n := ⟨i 0, i 1, eq_ix2 i⟩
  exact ref_out1 x0 x2 x3 x4 x5 x10 x11 x12 x13 p n

theorem ref2 (x0 : FVec Ideal S16384x512 .f32) (x2 : FVec Ideal S512x1024 .f32) (x3 : FVec Ideal S1024 .f32)
    (x4 : FVec Ideal S1024x1024 .f32) (x5 : FVec Ideal S1024 .f32) (x14 : FVec Ideal S2048x1024 .f32) (x15 : FVec Ideal S1024 .f32)
    (x16 : FVec Ideal S1024x1 .f32) (x17 : FVec Ideal S1 .f32) :
    val_main_v58 (F := Ideal) x0 x2 x3 x4 x5 x14 x15 x16 x17 = outTwice x0 x2 x3 x4 x5 x14 x15 x16 x17 := by
  funext i
  obtain ⟨p, n, rfl⟩ : ∃ (p : Fin 16384) (n : Fin 9), i = ix2 p n := ⟨i 0, i 1, eq_ix2 i⟩
  exact ref_out2 x0 x2 x3 x4 x5 x14 x15 x16 x17 p n

end Ref

/-! ## The kernel's run with its three results named -/

section Kern

open Cert.KernelIdeal Cert.KernelIdeal.Gen Cert.KernelIdeal.Packed Cert.RealEntries

theorem kernel_run (m : (ℓ : Loc nD τ sig) → Buf (Elt Ideal) ℓ) (ρ : Dev nD → PrngReg)
    (hfin : ∀ c : Dev nD, (∀ i, IsR (m ((c : Thread nD τ).loc main_arg0) i)) ∧ (∀ i, IsR (m ((c : Thread nD τ).loc main_arg2) i))
      ∧ (∀ i, IsR (m ((c : Thread nD τ).loc main_arg3) i)) ∧ (∀ i, IsR (m ((c : Thread nD τ).loc main_arg4) i))
      ∧ (∀ i, IsR (m ((c : Thread nD τ).loc main_arg5) i))) :
    θ_run defs (onTc (τ := τ) (main (F := Ideal))) ⟨m, fun _ => 0, ρ⟩ (fun r => ∀ c : Dev nD,
      r.2.mem ((c.tc : Thread nD τ).loc main_v27) = outHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_v28) = outHead (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg10)) (m ((c : Thread nD τ).loc main_arg11)) (m ((c : Thread nD τ).loc main_arg12)) (m ((c : Thread nD τ).loc main_arg13))
      ∧ r.2.mem ((c.tc : Thread nD τ).loc main_v29) = outTwice (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg14)) (m ((c : Thread nD τ).loc main_arg15)) (m ((c : Thread nD τ).loc main_arg16)) (m ((c : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c =>
    ⟨((h c).2 main_v27 (Pipeline.mem_restRefs_of main_v27 (by decide) (by decide))).trans (tail0 m c),
      ((h c).2 main_v28 (Pipeline.mem_restRefs_of main_v28 (by decide) (by decide))).trans (tail1 m c),
      ((h c).2 main_v29 (Pipeline.mem_restRefs_of main_v29 (by decide) (by decide))).trans
        (tail2 m c (hfin c).1 (hfin c).2.1 (hfin c).2.2.1 (hfin c).2.2.2.1 (hfin c).2.2.2.2),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c),
      ((h c).2 main_arg13 (Pipeline.mem_restRefs_of main_arg13 (by decide) (by decide))).trans (W_main_arg13 m (dats m) c),
      ((h c).2 main_arg14 (Pipeline.mem_restRefs_of main_arg14 (by decide) (by decide))).trans (W_main_arg14 m (dats m) c),
      ((h c).2 main_arg15 (Pipeline.mem_restRefs_of main_arg15 (by decide) (by decide))).trans (W_main_arg15 m (dats m) c),
      ((h c).2 main_arg16 (Pipeline.mem_restRefs_of main_arg16 (by decide) (by decide))).trans (W_main_arg16 m (dats m) c),
      ((h c).2 main_arg17 (Pipeline.mem_restRefs_of main_arg17 (by decide) (by decide))).trans (W_main_arg17 m (dats m) c)⟩)
    (run_main m ρ)

end Kern

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its generated run with the results dropped. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both runs end with the heads' numbers of the same arguments. -/
theorem algebraic : Cert.algebraic_KernelIdeal_ReferenceIdeal := by
  intro m ρ m' ρ' hpre hagree
  refine ⟨_, _, _, kernel_run m ρ (fun c => Cert.Pre_finite_inputs.Decode.real_inputs _ _ _ _ _ _ _ _ _ _ _ _ _ _ _ _ _ _ (hpre c)), ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · obtain ⟨e0, e1, e2, e3, e4, e5, e6, e7, e8, e9, e10, e11, e12, e13, e14, e15, e16, e17⟩ := hagree c
    rw [e0, e2, e3, e4, e5, e6, e7, e8, e9]
    exact ref0 _ _ _ _ _ _ _ _ _
  · obtain ⟨e0, e1, e2, e3, e4, e5, e6, e7, e8, e9, e10, e11, e12, e13, e14, e15, e16, e17⟩ := hagree c
    rw [e0, e2, e3, e4, e5, e10, e11, e12, e13]
    exact ref1 _ _ _ _ _ _ _ _ _
  · obtain ⟨e0, e1, e2, e3, e4, e5, e6, e7, e8, e9, e10, e11, e12, e13, e14, e15, e16, e17⟩ := hagree c
    rw [e0, e2, e3, e4, e5, e14, e15, e16, e17]
    exact ref2 _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
